-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S5x16 : Shape := ⟨2, ![5, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x16 : S_.BroadcastsInDim S5x16 (![] : Fin 0 → Fin S5x16.rank)
  reducesTo_S5x16_S_d0_1 : S5x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x5 .f32) (main_arg1 : IVec S2x3200000 32) (main_arg2 : FVec F S5x16 .f32) (main_arg3 : FVec F S16 .f32) (main_arg4 : FVec F S16x1 .f32) (main_arg5 : FVec F S1 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x16 .f32 := Host.absf main_arg2
  let main_cst_0 : FVec F S_ .f32 := constant S_ .f32 0x7F800000#32
  let main_v5 : FVec F S5x16 .f32 := broadcastInDim S5x16 ![] bcast_S_S5x16 main_cst_0
  let main_v6 : IVec S5x16 1 := cmpf .olt main_v4 main_v5
  let main_c_1 : IVec S_ 1 := constantI S_ 1 1#1
  let main_v7 : IVec S_ 1 := (fun x v => Host.reduce IntOp.andi x v reducesTo_S5x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x5 : Shape := ⟨2, ![100000, 5]⟩
abbrev S2x3200000 : Shape := ⟨2, ![2, 3200000]⟩
abbrev S5x16 : Shape := ⟨2, ![5, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S5000x5 : Shape := ⟨2, ![5000, 5]⟩
abbrev S5000x1 : Shape := ⟨2, ![5000, 1]⟩
abbrev S3300000x5 : Shape := ⟨2, ![3300000, 5]⟩
abbrev S1x16 : Shape := ⟨2, ![1, 16]⟩
abbrev S5000x16 : Shape := ⟨2, ![5000, 16]⟩
abbrev S1x1 : Shape := ⟨2, ![1, 1]⟩

abbrev nBuf : Space → Nat
  | .hbm => 52
  | .vmem => 24
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S5x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S100000x1, .f32⟩
  | .hbm, ⟨20, _⟩ => ⟨S100000x5, .f32⟩
  | .hbm, ⟨21, _⟩ => ⟨S100000x1, .f32⟩
  | .hbm, ⟨22, _⟩ => ⟨S_, .i32⟩
  | .hbm, ⟨23, _⟩ => ⟨S3300000, .i32⟩
  | .hbm, ⟨24, _⟩ => ⟨S3300000, .i1⟩
  | .hbm, ⟨25, _⟩ => ⟨S_, .i32⟩
  | .hbm, ⟨26, _⟩ => ⟨S3300000, .i32⟩
  | .hbm, ⟨27, _⟩ => ⟨S3300000, .i32⟩
  | .hbm, ⟨28, _⟩ => ⟨S3300000, .i32⟩
  | .hbm, ⟨29, _⟩ => ⟨S3300000x1, .i32⟩
  | .hbm, ⟨30, _⟩ => ⟨S3300000x5, .f32⟩
  | .hbm, ⟨31, _⟩ => ⟨S_, .f32⟩
  | .hbm, ⟨32, _⟩ => ⟨S100000x5, .f32⟩
  | .hbm, ⟨33, _⟩ => ⟨S3300000x1, .i32⟩
  | .hbm, ⟨34, _⟩ => ⟨S100000x5, .f32⟩
  | .hbm, ⟨35, _⟩ => ⟨S1x16, .f32⟩
  | .hbm, ⟨36, _⟩ => ⟨S100000x1, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000x1, .f32⟩
  | .hbm, ⟨46, _⟩ => ⟨S_, .f32⟩
  | .hbm, ⟨47, _⟩ => ⟨S100000x1, .f32⟩
  | .hbm, ⟨48, _⟩ => ⟨S3300000x1, .i32⟩
  | .hbm, ⟨49, _⟩ => ⟨S100000x1, .f32⟩
  | .hbm, ⟨50, _⟩ => ⟨S1x1, .f32⟩
  | .hbm, ⟨51, _⟩ => ⟨S100000x1, .f32⟩
  | .local _ .vmem, ⟨0, _⟩ => ⟨S5000x5, .f32⟩
  | .local _ .vmem, ⟨1, _⟩ => ⟨S5000x5, .f32⟩
  | .local _ .vmem, ⟨2, _⟩ => ⟨S5000x1, .f32⟩
  | .local _ .vmem, ⟨3, _⟩ => ⟨S5000x1, .f32⟩
  | .local _ .vmem, ⟨4, _⟩ => ⟨S5000x5, .f32⟩
  | .local _ .vmem, ⟨5, _⟩ => ⟨S5000x5, .f32⟩
  | .local _ .vmem, ⟨6, _⟩ => ⟨S5000x1, .f32⟩
  | .local _ .vmem, ⟨7, _⟩ => ⟨S5000x1, .f32⟩
  | .local _ .vmem, ⟨8, _⟩ => ⟨S5000x5, .f32⟩
  | .local _ .vmem, ⟨9, _⟩ => ⟨S5000x5, .f32⟩
  | .local _ .vmem, ⟨10, _⟩ => ⟨S5000x1, .f32⟩
  | .local _ .vmem, ⟨11, _⟩ => ⟨S5000x1, .f32⟩
  | .local _ .vmem, ⟨12, _⟩ => ⟨S5x16, .f32⟩
  | .local _ .vmem, ⟨13, _⟩ => ⟨S1x16, .f32⟩
  | .local _ .vmem, ⟨14, _⟩ => ⟨S16x1, .f32⟩
  | .local _ .vmem, ⟨15, _⟩ => ⟨S5000x1, .f32⟩
  | .local _ .vmem, ⟨16, _⟩ => ⟨S5000x1, .f32⟩
  | .local _ .vmem, ⟨17, _⟩ => ⟨S5000x1, .f32⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x5_S5000x5_0_0 : ∀ a, (![0, 0] : Fin 2 → Nat) a + S5000x5.size a ≤ S5000x5.size a
  h_S5000x5 : 0 < S5000x5.numel
  broadcasts_S5000x1_S5000x5 : S5000x1.Broadcasts S5000x5
  bcast_S_S100000x5 : S_.BroadcastsInDim S100000x5 (![] : Fin 0 → Fin S100000x5.rank)
  shapeCasts_S16_S1x16 : S16.ShapeCasts S1x16
  shapeCasts_S5000x5_S5000x5 : S5000x5.ShapeCasts S5000x5
  bitsLt_bf16_f32 : FTy.bits .bf16 < FTy.bits .f32
  inb_S5x16_S5x16_0_0 : ∀ a, (![0, 0] : Fin 2 → Nat) a + S5x16.size a ≤ S5x16.size a
  h_S5x16 : 0 < S5x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x1_S16x1_0_0 : ∀ a, (![0, 0] : Fin 2 → Nat) a + S16x1.size a ≤ S16x1.size a
  h_S16x1 : 0 < S16x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S3300000x1_S3300000_n_0_0_1_wf : ScatterDims.WF S100000 S3300000x1 S3300000 [] [0] [0] 1
  gather_S100000x5_S3300000x1_S3300000x5_1_0_n_n_0_1_15_wf : GatherDims.WF S100000x5 S3300000x1 S3300000x5 [1] [0] [] [0] [] 1 ![1, 5]
  scatter_S100000x5_S3300000x1_S3300000x5_1_0_0_1_wf : ScatterDims.WF S100000x5 S3300000x1 S3300000x5 [1] [0] [0] 1
  dot_S5000x5_S5x16_S5000x16_1_0_0_1_n_n_wf : DotDims.WF S5000x5 S5x16 S5000x16 [1] [0] [0] [1] [] []
  dot_S5000x16_S16x1_S5000x1_1_0_0_1_n_n_wf : DotDims.WF S5000x16 S16x1 S5000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x5.size a ≤ S100000x5.size a
  hwx0_2 : ∀ i : grid0.Coords, EltTy.bits .f32 = 32 ∨ (Rect.block (s := S100000x5) S5000x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x5.size a ≤ S100000x5.size a
  hwx1_0 : ∀ i : grid1.Coords, EltTy.bits .f32 = 32 ∨ (Rect.block (s := S100000x5) S5000x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x16.size a ≤ S5x16.size a
  hwx1_2 : ∀ i : grid1.Coords, EltTy.bits .f32 = 32 ∨ (Rect.block (s := S5x16) S5x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x1.size a ≤ S16x1.size a
  hwx1_4 : ∀ i : grid1.Coords, EltTy.bits .f32 = 32 ∨ (Rect.block (s := S16x1) S16x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x1.size a ≤ S100000x1.size a
  hwx2_0 : ∀ i : grid2.Coords, EltTy.bits .f32 = 32 ∨ (Rect.block (s := S100000x1) S5000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000x5_S3300000x1_S3300000x5_1_0_n_n_0_1_15 : GatherDims S100000x5 S3300000x1 S3300000x5 where
  offsetDims := [1]
  collapsedSliceDims := [0]
  operandBatchingDims := []
  startIndicesBatchingDims := []
  startIndexMap := [0]
  indexVectorDim := 1
  sliceSizes := ![1, 5]
  wf := gather_S100000x5_S3300000x1_S3300000x5_1_0_n_n_0_1_15_wf
def scatter_S100000x5_S3300000x1_S3300000x5_1_0_0_1 : ScatterDims S100000x5 S3300000x1 S3300000x5 where
  updateWindowDims := [1]
  insertedWindowDims := [0]
  scatterDimsToOperandDims := [0]
  indexVectorDim := 1
  wf := scatter_S100000x5_S3300000x1_S3300000x5_1_0_0_1_wf
def dot_S5000x5_S5x16_S5000x16_1_0_0_1_n_n : DotDims S5000x5 S5x16 S5000x16 where
  lhsContracting := [1]
  rhsContracting := [0]
  lhsNonContracting := [0]
  rhsNonContracting := [1]
  lhsBatch := []
  rhsBatch := []
  wf := dot_S5000x5_S5x16_S5000x16_1_0_0_1_n_n_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12_0) S5000x5.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_1) S5000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S5x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12_1) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x5 : Shape := ⟨2, ![100000, 5]⟩
abbrev S2x3200000 : Shape := ⟨2, ![2, 3200000]⟩
abbrev S5x16 : Shape := ⟨2, ![5, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S5x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S100000x16, .f32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000, .f32⟩
  | .hbm, ⟨49, _⟩ => ⟨S3300000, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x1, .f32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000, .f32⟩
  | .hbm, ⟨86, _⟩ => ⟨S_, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000, .f32⟩
  | .hbm, ⟨99, _⟩ => ⟨S_, .i32⟩
  | .hbm, ⟨100, _⟩ => ⟨S3300000, .i32⟩
  | .hbm, ⟨101, _⟩ => ⟨S3300000, .i1⟩
  | .hbm, ⟨102, _⟩ => ⟨S_, .i32⟩
  | .hbm, ⟨103, _⟩ => ⟨S3300000, .i32⟩
  | .hbm, ⟨104, _⟩ => ⟨S3300000, .i32⟩
  | .hbm, ⟨105, _⟩ => ⟨S3300000, .i32⟩
  | .hbm, ⟨106, _⟩ => ⟨S3300000x1, .i32⟩
  | .hbm, ⟨107, _⟩ => ⟨S3300000, .f32⟩
  | .hbm, ⟨108, _⟩ => ⟨S3300000, .f32⟩
  | .hbm, ⟨109, _⟩ => ⟨S_, .i32⟩
  | .hbm, ⟨110, _⟩ => ⟨S3300000, .i32⟩
  | .hbm, ⟨111, _⟩ => ⟨S3300000, .i1⟩
  | .hbm, ⟨112, _⟩ => ⟨S_, .i32⟩
  | .hbm, ⟨113, _⟩ => ⟨S3300000, .i32⟩
  | .hbm, ⟨114, _⟩ => ⟨S3300000, .i32⟩
  | .hbm, ⟨115, _⟩ => ⟨S3300000, .i32⟩
  | .hbm, ⟨116, _⟩ => ⟨S3300000x1, .i32⟩
  | .hbm, ⟨117, _⟩ => ⟨S3300000x1, .f32⟩
  | .hbm, ⟨118, _⟩ => ⟨S3300000x1, .f32⟩
  | .hbm, ⟨119, _⟩ => ⟨S3300000x1, .f32⟩
  | .hbm, ⟨120, _⟩ => ⟨S_, .f32⟩
  | .hbm, ⟨121, _⟩ => ⟨S100000x1, .f32⟩
  | .hbm, ⟨122, _⟩ => ⟨S3300000x1, .i32⟩
  | .hbm, ⟨123, _⟩ => ⟨S100000x1, .f32⟩
  | .hbm, ⟨124, _⟩ => ⟨S1x1, .f32⟩
  | .hbm, ⟨125, _⟩ => ⟨S100000x1, .f32⟩
  | .hbm, ⟨126, _⟩ => ⟨S100000x1, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_cst_21 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x5_S5x16_S100000x16_1_0_0_1_n_n_wf : DotDims.WF S100000x5 S5x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def dot_S100000x5_S5x16_S100000x16_1_0_0_1_n_n : DotDims S100000x5 S5x16 S100000x16 where
  lhsContracting := [1]
  rhsContracting := [0]
  lhsNonContracting := [0]
  rhsNonContracting := [1]
  lhsBatch := []
  rhsBatch := []
  wf := dot_S100000x5_S5x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.LibConcatenateSimp.lean ====
/-
  Lemmas that let `simp` evaluate a fold of host operations through a `concatenate`.

  The contents of a buffer after a list of host operations is a fold; the library's result lemmas rewrite it one
  operation at a time. A `concatenate` holds its operands as the second components of dependent pairs, where `simp`
  does not rewrite on its own, and a `concatenate` of four operands printed over a literal family `![a, b, c, d]` looks
  its operands up at `![a, b, c, d] k`. With the two congruence lemmas below (tagged `congr` where they are used) and the
  four evaluations of a literal 4-vector added to the simp set, the fold is evaluated inside the operands as well.
-/
import Idealize.ShloMosaic.Lib.Pipeline.Value

namespace Cert.LibConcatenateSimp

open Idealize.ShloMosaic

/-- A two-operand `concatenate` of equal operands is the same array. -/
theorem concatenate2_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by subst e₁ e₂; rfl

/-- A four-operand `concatenate` of equal operands is the same array. -/
theorem concatenate4_congr {α : Type} {t s₁ s₂ s₃ s₄ : Shape} (a : Fin t.rank) {x₁ x₁' : s₁.Idx → α} {x₂ x₂' : s₂.Idx → α}
    {x₃ x₃' : s₃.Idx → α} {x₄ x₄' : s₄.Idx → α}
    (h : Shape.Concatenates [s₁, s₂, s₃, s₄] t a) (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h = concatenate t a [⟨s₁, x₁'⟩, ⟨s₂, x₂'⟩, ⟨s₃, x₃'⟩, ⟨s₄, x₄'⟩] h := by
  subst e₁ e₂ e₃ e₄; rfl

theorem vec4_at0 {α : Type} (a b c d : α) : (![a, b, c, d] : Fin 4 → α) 0 = a := rfl
theorem vec4_at1 {α : Type} (a b c d : α) : (![a, b, c, d] : Fin 4 → α) 1 = b := rfl
theorem vec4_at2 {α : Type} (a b c d : α) : (![a, b, c, d] : Fin 4 → α) 2 = c := rfl
theorem vec4_at3 {α : Type} (a b c d : α) : (![a, b, c, d] : Fin 4 → α) 3 = d := rfl

end Cert.LibConcatenateSimp
-- ==== Proof.KHost.lean ====
/-
  The idealized kernel program's host side, read back: what the buffers hold at the boundaries between its host stretches
  and its three regions.

  The program runs a stretch of host operations, then a region, three times over. The generated frame names the buffer
  contents at each boundary (W1 … W6: after the first stretch, after the first region, …). Here each buffer a later step
  reads is traced to where it was last written: a stretch leaves alone every buffer it does not write, a region every buffer
  that is not one of its output arrays; and each buffer a stretch does write is the stretch's operations applied to the
  contents at its start (the edge words, the degree column, the two edge aggregations, the reshaped biases).
-/
import proofs.«136974_j31576599560907_2_alg».proof.Proof.Gen.KernelIdeal.Frame
import proofs.«136974_j31576599560907_2_alg».proof.Proof.LibConcatenateSimp
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- No operation of the stretch writes the buffer. -/
local macro "not_written " ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The edge words: written by the first stretch, read by the second and the third -/

/-- The source words of the 3300000 edges, as the first stretch leaves them. -/
abbrev srcW : S3300000.Idx → BitVec 32 := W1 m ρ c (Proc.devRef .tc main_v3)
/-- The destination words. -/
abbrev dstW : S3300000.Idx → BitVec 32 := W1 m ρ c (Proc.devRef .tc main_v6)

theorem W2_v3 : W2 m ρ c (Proc.devRef .tc main_v3) = srcW m ρ c := W2_of_ne m ρ c main_v3 (by decide)
theorem W2_v6 : W2 m ρ c (Proc.devRef .tc main_v6) = dstW m ρ c := W2_of_ne m ρ c main_v6 (by decide)
theorem W3_v3 : W3 m ρ c (Proc.devRef .tc main_v3) = srcW m ρ c :=
  (StableHlo.after_of_forall_not_mem (b := Proc.devRef .tc main_v3) _ _ (by not_written hostOps1)).trans (W2_v3 m ρ c)
theorem W3_v6 : W3 m ρ c (Proc.devRef .tc main_v6) = dstW m ρ c :=
  (StableHlo.after_of_forall_not_mem (b := Proc.devRef .tc main_v6) _ _ (by not_written hostOps1)).trans (W2_v6 m ρ c)
theorem W4_v3 : W4 m ρ c (Proc.devRef .tc main_v3) = srcW m ρ c := (W4_of_ne m ρ c main_v3 (by decide)).trans (W3_v3 m ρ c)
theorem W4_v6 : W4 m ρ c (Proc.devRef .tc main_v6) = dstW m ρ c := (W4_of_ne m ρ c main_v6 (by decide)).trans (W3_v6 m ρ c)

/-! ## The arguments at the inner boundaries -/

theorem W1_arg0 : W1 m ρ c (Proc.devRef .tc main_arg0) = m ((c : Thread nD τ).loc main_arg0) :=
  (StableHlo.after_of_forall_not_mem (b := Proc.devRef .tc main_arg0) _ _ (by not_written hostOps0)).trans rfl
theorem W2_arg2 : W2 m ρ c (Proc.devRef .tc main_arg2) = m ((c : Thread nD τ).loc main_arg2) :=
  (W2_of_ne m ρ c main_arg2 (by decide)).trans
    ((StableHlo.after_of_forall_not_mem (b := Proc.devRef .tc main_arg2) _ _ (by not_written hostOps0)).trans rfl)
theorem W2_arg3 : W2 m ρ c (Proc.devRef .tc main_arg3) = m ((c : Thread nD τ).loc main_arg3) :=
  (W2_of_ne m ρ c main_arg3 (by decide)).trans
    ((StableHlo.after_of_forall_not_mem (b := Proc.devRef .tc main_arg3) _ _ (by not_written hostOps0)).trans rfl)
theorem W2_arg4 : W2 m ρ c (Proc.devRef .tc main_arg4) = m ((c : Thread nD τ).loc main_arg4) :=
  (W2_of_ne m ρ c main_arg4 (by decide)).trans
    ((StableHlo.after_of_forall_not_mem (b := Proc.devRef .tc main_arg4) _ _ (by not_written hostOps0)).trans rfl)
theorem W3_arg2 : W3 m ρ c (Proc.devRef .tc main_arg2) = m ((c : Thread nD τ).loc main_arg2) :=
  (StableHlo.after_of_forall_not_mem (b := Proc.devRef .tc main_arg2) _ _ (by not_written hostOps1)).trans (W2_arg2 m ρ c)
theorem W3_arg4 : W3 m ρ c (Proc.devRef .tc main_arg4) = m ((c : Thread nD τ).loc main_arg4) :=
  (StableHlo.after_of_forall_not_mem (b := Proc.devRef .tc main_arg4) _ _ (by not_written hostOps1)).trans (W2_arg4 m ρ c)
/-- The last bias is read by the third stretch: it is as launched there, since it is as launched at the end and neither the
    third stretch nor the third region writes it. -/
theorem W4_arg5 : W4 m ρ c (Proc.devRef .tc main_arg5) = m ((c : Thread nD τ).loc main_arg5) :=
  ((StableHlo.after_of_forall_not_mem (b := Proc.devRef .tc main_arg5) _ _ (by not_written hostOps2)).symm.trans
    (W6_of_ne m ρ c main_arg5 (by decide)).symm).trans (W6_main_arg5 m ρ c)

/-! ## The factor column: written by the first region, read by the second and the third -/

/-- What the first region leaves in its second output array. -/
abbrev disA : S100000x1.Idx → EReal := (dat0 (V1 m ρ) c).arrAt 3 cfg0.N

theorem W2_v12_1 : W2 m ρ c (Proc.devRef .tc main_v12_1) = disA m ρ c := W2_arr m ρ c 3
theorem W3_v12_1 : W3 m ρ c (Proc.devRef .tc main_v12_1) = disA m ρ c :=
  (StableHlo.after_of_forall_not_mem (b := Proc.devRef .tc main_v12_1) _ _ (by not_written hostOps1)).trans (W2_v12_1 m ρ c)
/-- The second region only reads the factor column (an input window's array ends as it was entered). -/
theorem W4_v12_1 : W4 m ρ c (Proc.devRef .tc main_v12_1) = disA m ρ c :=
  ((W4_arr m ρ c 1).trans (((dat1 (V3 m ρ) c).arrAt_in 1 rfl _).trans (A_eq1 (V3 m ρ) c 1))).trans (W3_v12_1 m ρ c)
theorem W5_v12_1 : W5 m ρ c (Proc.devRef .tc main_v12_1) = disA m ρ c :=
  (StableHlo.after_of_forall_not_mem (b := Proc.devRef .tc main_v12_1) _ _ (by not_written hostOps2)).trans (W4_v12_1 m ρ c)

/-! ## What the stretches write -/

attribute [local congr] Cert.LibConcatenateSimp.concatenate2_congr

/-- The degree column the first region reads: ones accumulated onto zero at the destination words, reshaped to a column. -/
theorem W1_v11 : W1 m ρ c (Proc.devRef .tc main_v11)
    = shapeCast S100000x1 (Host.scatterAdd scatter_S100000_S3300000x1_S3300000_n_0_0_1
        (broadcastInDim S100000 ![] bcast_S_S100000 (constant (F := Ideal) S_ .f32 0x00000000#32))
        (broadcastInDim S3300000x1 ![0] bcast_S3300000_S3300000x1_0 (dstW m ρ c))
        (broadcastInDim S3300000 ![] bcast_S_S3300000 (constant (F := Ideal) S_ .f32 0x3F800000#32))) shapeCasts_S100000_S100000x1 := by
  show StableHlo.after hostOps0 (W0 m ρ c) (Proc.devRef .tc main_v11) = _
  after_results_simp
  all_goals rfl

/-- A start word array wrapped for a gather, as a column. -/
abbrev wrapCol (v : S3300000.Idx → BitVec 32) : S3300000x1.Idx → BitVec 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- The first edge aggregation: the scaled features gathered at the source words, accumulated onto zero at the destination
    words. -/
theorem W3_v22 : W3 m ρ c (Proc.devRef .tc main_v22)
    = Host.scatterAdd scatter_S100000x5_S3300000x1_S3300000x5_1_0_0_1
        (broadcastInDim S100000x5 ![] bcast_S_S100000x5 (constant (F := Ideal) S_ .f32 0x00000000#32))
        (broadcastInDim S3300000x1 ![0] bcast_S3300000_S3300000x1_0 (dstW m ρ c))
        (Host.gather gather_S100000x5_S3300000x1_S3300000x5_1_0_n_n_0_1_15 ((dat0 (V1 m ρ) c).arrAt 2 cfg0.N) (wrapCol (srcW m ρ c))) := by
  rw [← W2_v6 m ρ c, ← W2_v3 m ρ c, ← W2_arr m ρ c 2]
  show StableHlo.after hostOps1 (W2 m ρ c) (Proc.devRef .tc main_v22) = _
  after_results_simp
  all_goals rfl

/-- The first bias as a row. -/
theorem W3_v23 : W3 m ρ c (Proc.devRef .tc main_v23) = shapeCast S1x16 (m ((c : Thread nD τ).loc main_arg3)) shapeCasts_S16_S1x16 := by
  rw [← W2_arg3 m ρ c]
  show StableHlo.after hostOps1 (W2 m ρ c) (Proc.devRef .tc main_v23) = _
  after_results_simp
  all_goals rfl

/-- The second edge aggregation. -/
theorem W5_v34 : W5 m ρ c (Proc.devRef .tc main_v34)
    = Host.scatterAdd scatter_S100000x1_S3300000x1_S3300000x1_1_0_0_1
        (broadcastInDim S100000x1 ![] bcast_S_S100000x1 (constant (F := Ideal) S_ .f32 0x00000000#32))
        (broadcastInDim S3300000x1 ![0] bcast_S3300000_S3300000x1_0 (dstW m ρ c))
        (Host.gather gather_S100000x1_S3300000x1_S3300000x1_1_0_n_n_0_1_11 ((dat1 (V3 m ρ) c).arrAt 5 cfg1.N) (wrapCol (srcW m ρ c))) := by
  rw [← W4_v6 m ρ c, ← W4_v3 m ρ c, ← W4_arr m ρ c 5]
  show StableHlo.after hostOps2 (W4 m ρ c) (Proc.devRef .tc main_v34) = _
  after_results_simp
  all_goals rfl

/-- The second bias as a one-by-one array. -/
theorem W5_v35 : W5 m ρ c (Proc.devRef .tc main_v35) = shapeCast S1x1 (m ((c : Thread nD τ).loc main_arg5)) shapeCasts_S1_S1x1 := by
  rw [← W4_arg5 m ρ c]
  show StableHlo.after hostOps2 (W4 m ρ c) (Proc.devRef .tc main_v35) = _
  after_results_simp
  all_goals rfl

end Cert.KernelIdeal.HostValue

end
-- ==== Proof.Spec.lean ====
/-
  The two-layer normalised graph aggregation, index by index on the extended reals, in the two arrangements that the
  kernel's program and the reference compute.

  There are 100000 nodes and 3300000 edges (3200000 given ones followed by one self-loop per node). Edge `e` has a source
  word `src e` and a destination word `dst e` (32-bit, read signed). An aggregation over the edges INTO node `n` is a sum
  over the edges whose destination word is exactly `n` (`inEdges`); what an edge CONTRIBUTES is read at the row its source
  word names once a negative word has been wrapped by the node count and the result clamped into the node range
  (`srcRow`; the reference reads its normalisation factor at the destination word in the same way, `dstRow`).

  `deg n` counts the edges into `n`; `dis n` is `deg n ^ (-1/2)` (zero where no edge arrives).
  The kernel's arrangement scales the rows by `dis` before and after each edge sum, and multiplies by the first weight matrix
  AFTER the first edge sum (`outK`); the reference multiplies first and scales every edge's message by
  `dis (source) * dis (destination)` (`outR`). On real entries the two agree: both are
  `D^(-1/2) (A + I) D^(-1/2)` applied twice with a bias and a rectifier in between.
-/
import Idealize.ShloMosaic.PureOps.Ideal
import Idealize.ShloMosaic.Lib.ValueIdx

noncomputable section

namespace Cert.GcnSpec

open Idealize.ShloMosaic Idealize.ShloMosaic.ValueIdx
open scoped BigOperators

/-- The single-precision zero word's value. -/
abbrev zeroW : EReal := Ideal.ofBits .f32 0x00000000#32
/-- The single-precision word of 1.0. -/
abbrev oneW : EReal := Ideal.ofBits .f32 0x3F800000#32

/-- A start word with a negative value wrapped by the node count (NumPy's indexing from the end). -/
def wrapNeg (v : BitVec 32) : BitVec 32 := Scalar.select (IntOp.cmpi .slt v 0#32) (IntOp.addi v 100000#32) v

/-- The row a start word names in a gather from 100000 rows: read signed and clamped into the range. -/
def clampRow (v : BitVec 32) : Fin 100000 := ⟨min v.toInt.toNat 99999, by omega⟩

/-- `deg ^ (-1/2)`, zero where the degree is not positive, as both programs compute it from a degree. -/
def disOf (d : EReal) : EReal :=
  Scalar.select (FloatOps.cmpf (F := Ideal) (φ := .f32) .ogt d zeroW) (Ideal.rsqrt (max d oneW)) zeroW

section Edges

variable (src dst : (⟨1, ![3300000]⟩ : Shape).Idx → BitVec 32)

/-- The row edge `e` reads: its source word wrapped and clamped. -/
def srcRow (e : Fin 3300000) : Fin 100000 := clampRow (wrapNeg (src (ix1 e)))
/-- The row edge `e`'s destination word names when it is READ as a gather index (wrapped and clamped). -/
def dstRow (e : Fin 3300000) : Fin 100000 := clampRow (wrapNeg (dst (ix1 e)))
/-- The edges that an accumulation adds into node `n`: those whose destination word, read signed, is exactly `n`. -/
def inEdges (n : Fin 100000) : Finset (Fin 3300000) :=
  Finset.univ.filter fun e => (dst (ix1 e)).toInt = (n.val : Int)

/-- The number of edges into `n`, accumulated as ones onto zero. -/
def deg (n : Fin 100000) : EReal := zeroW + ∑ _e ∈ inEdges dst n, oneW
/-- The normalisation factor of node `n`. -/
def dis (n : Fin 100000) : EReal := disOf (deg dst n)

variable (x : (⟨2, ![100000, 5]⟩ : Shape).Idx → EReal) (W1 : (⟨2, ![5, 16]⟩ : Shape).Idx → EReal)
  (b1 : (⟨1, ![16]⟩ : Shape).Idx → EReal) (W2 : (⟨2, ![16, 1]⟩ : Shape).Idx → EReal) (b2 : (⟨1, ![1]⟩ : Shape).Idx → EReal)

/-! ### The kernel's arrangement -/

/-- The features scaled by the source factor. -/
def xs (n : Fin 100000) (k : Fin 5) : EReal := x (ix2 n k) * dis dst n
/-- Their sum over the edges into `n`. -/
def agg1 (n : Fin 100000) (k : Fin 5) : EReal := zeroW + ∑ e ∈ inEdges dst n, xs dst x (srcRow src e) k
/-- The hidden layer: the sum scaled by the destination factor, times the first weights, plus the bias, rectified. -/
def hK (n : Fin 100000) (c : Fin 16) : EReal :=
  max ((∑ k : Fin 5, (agg1 src dst x n k * dis dst n) * W1 (ix2 k c)) + b1 (ix1 c)) zeroW
/-- The hidden layer times the second weights, scaled by the source factor. -/
def pK (n : Fin 100000) : EReal := (∑ c : Fin 16, hK src dst x W1 b1 n c * W2 (ix2 c 0)) * dis dst n
/-- Its sum over the edges into `n`. -/
def agg2 (n : Fin 100000) : EReal := zeroW + ∑ e ∈ inEdges dst n, pK src dst x W1 b1 W2 (srcRow src e)
/-- The kernel's result at node `n`. -/
def outK (n : Fin 100000) : EReal := agg2 src dst x W1 b1 W2 n * dis dst n + b2 (ix1 0)

/-! ### The reference's arrangement -/

/-- The features times the first weights. -/
def h0 (n : Fin 100000) (c : Fin 16) : EReal := ∑ k : Fin 5, x (ix2 n k) * W1 (ix2 k c)
/-- An edge's weight: the source factor times the destination factor. -/
def nrm (e : Fin 3300000) : EReal := dis dst (srcRow src e) * dis dst (dstRow dst e)
/-- The first layer before the rectifier. -/
def o1 (n : Fin 100000) (c : Fin 16) : EReal :=
  (zeroW + ∑ e ∈ inEdges dst n, h0 x W1 (srcRow src e) c * nrm src dst e) + b1 (ix1 c)
/-- The hidden layer. -/
def hR (n : Fin 100000) (c : Fin 16) : EReal := max (o1 src dst x W1 b1 n c) zeroW
/-- The hidden layer times the second weights. -/
def pR (n : Fin 100000) : EReal := ∑ c : Fin 16, hR src dst x W1 b1 n c * W2 (ix2 c 0)
/-- The reference's result at node `n`. -/
def outR (n : Fin 100000) : EReal :=
  (zeroW + ∑ e ∈ inEdges dst n, pR src dst x W1 b1 W2 (srcRow src e) * nrm src dst e) + b2 (ix1 0)

end Edges

end Cert.GcnSpec

end
-- ==== Proof.LibRowIndexOps.lean ====
/-
  The host's gather of ROWS and accumulating scatter of ROWS through ONE column of start indices, read at an index: what
  x[idx] and a segment sum lower to.

  * rowGather / rowGather_apply: operand [N, C], start indices [E, 1], result [E, C]. Result element (e, c) is the operand at
    row idx[e, 0], read as a signed integer and clamped into [0, N - 1], column c.
  * flatGather / flatGather_apply: the same for a flat operand [N] and result [E].
  * rowScatter / rowScatterAdd_apply: operand [N, C], start indices [E, 1], updates [E, C], body "add". Result element (n, c) is
    the operand's plus the sum of the updates (e, c) over the rows e whose start word idx[e, 0], read as a signed integer and
    NOT clamped, is exactly n (an update whose start leaves [0, N) is dropped, so it is in no row's sum).
  * flatScatter / flatScatterAdd_apply: the same for a flat operand [N] and updates [E].

  Everything is generic in the sizes N, E, C: membership and positions are computed on the literal axis lists only, and no
  index type is enumerated.
-/
import Idealize.ShloMosaic.PureOps.Ideal
import Idealize.ShloMosaic.Lib.ValueIdx

noncomputable section

open scoped BigOperators

namespace Cert.RowIndexOps
open Idealize.ShloMosaic Idealize.ShloMosaic.ValueIdx

/-! ## Sums over a rank-1 index set -/

/-- A rank-1 index set is its one coordinate's range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The accumulating scatter of rows -/

/-- rows scattered: operand [N, C], start indices one column [E, 1], updates [E, C] -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- on the row axis the window starts at the start word of row e, read signed -/
private theorem rowScatter_start0 :
    (rowScatter N E C wf).start (ix2 e c') idx 0 = (idx (ix2 e (0 : Fin 1))).toInt := by
  unfold ScatterDims.start
  rw [dif_pos (show (0 : Fin 2) ∈ (rowScatter N E C wf).scatterDimsToOperandDims from List.mem_singleton.mpr rfl)]
  have hsi : (rowScatter N E C wf).siIdx (ix2 e c') ⟨List.idxOf (0 : Fin 2) (rowScatter N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- on the column axis the window starts at 0 -/
private theorem rowScatter_start1 : (rowScatter N E C wf).start (ix2 e c') idx 1 = 0 := by
  have h1 : (1 : Fin 2) ∉ ([0] : List (Fin 2)) := by decide
  unfold ScatterDims.start
  rw [dif_neg (show (1 : Fin 2) ∉ (rowScatter N E C wf).scatterDimsToOperandDims from h1)]

/-- the row axis is inserted: its window coordinate is 0 -/
private theorem rowScatter_window0 : (rowScatter N E C wf).window (ix2 e c') 0 = 0 := by
  have h0 : (0 : Fin 2) ∉ (rowScatter N E C wf).sKept := by
    show (0 : Fin 2) ∉ (List.finRange 2).filter (· ∉ ([0] : List (Fin 2)))
    decide
  unfold ScatterDims.window
  rw [dif_neg h0]

/-- the column axis carries the update's column -/
private theorem rowScatter_window1 : (rowScatter N E C wf).window (ix2 e c') 1 = c'.val := by
  have h1 : (1 : Fin 2) ∈ (rowScatter N E C wf).sKept := by
    show (1 : Fin 2) ∈ (List.finRange 2).filter (· ∉ ([0] : List (Fin 2)))
    decide
  unfold ScatterDims.window
  rw [dif_pos h1]
  rfl

/-- update (e, c') lands at (n, c) exactly when row e's start word, read signed, is n and the columns agree -/
private theorem rowScatter_resultIdx_iff (n : Fin N) (c : Fin C) :
    (rowScatter N E C wf).resultIdx? (ix2 e c') idx = some (ix2 n c)
      ↔ (idx (ix2 e (0 : Fin 1))).toInt = (n.val : Int) ∧ c' = c := by
  have hn := n.isLt
  have hc := c.isLt
  have hc' := c'.isLt
  unfold ScatterDims.resultIdx?
  split
  · rename_i h
    rw [Option.some.injEq]
    have hh : 0 ≤ (rowScatter N E C wf).start (ix2 e c') idx 0 + ((rowScatter N E C wf).window (ix2 e c') 0 : Nat) := (h 0).1
    rw [rowScatter_start0, rowScatter_window0] at hh
    constructor
    · intro hf
      have h0 : ((rowScatter N E C wf).start (ix2 e c') idx 0 + ((rowScatter N E C wf).window (ix2 e c') 0 : Nat)).toNat = n.val :=
        congrArg (fun f : (⟨2, ![N, C]⟩ : Shape).Idx => (f 0).val) hf
      have h1 : ((rowScatter N E C wf).start (ix2 e c') idx 1 + ((rowScatter N E C wf).window (ix2 e c') 1 : Nat)).toNat = c.val :=
        congrArg (fun f : (⟨2, ![N, C]⟩ : Shape).Idx => (f 1).val) hf
      rw [rowScatter_start0, rowScatter_window0] at h0
      rw [rowScatter_start1, rowScatter_window1] at h1
      refine ⟨by omega, Fin.ext (by omega)⟩
    · rintro ⟨ht, rfl⟩
      funext a; refine Fin.ext ?_
      match a with
      | ⟨0, _⟩ =>
        show ((rowScatter N E C wf).start (ix2 e c') idx 0 + ((rowScatter N E C wf).window (ix2 e c') 0 : Nat)).toNat = n.val
        rw [rowScatter_start0, rowScatter_window0]; omega
      | ⟨1, _⟩ =>
        show ((rowScatter N E C wf).start (ix2 e c') idx 1 + ((rowScatter N E C wf).window (ix2 e c') 1 : Nat)).toNat = c'.val
        rw [rowScatter_start1, rowScatter_window1]; omega
  · rename_i h
    constructor
    · intro hf; cases hf
    · rintro ⟨ht, rfl⟩
      exfalso; apply h
      intro a
      match a with
      | ⟨0, _⟩ =>
        show 0 ≤ (rowScatter N E C wf).start (ix2 e c') idx 0 + ((rowScatter N E C wf).window (ix2 e c') 0 : Nat)
          ∧ (rowScatter N E C wf).start (ix2 e c') idx 0 + ((rowScatter N E C wf).window (ix2 e c') 0 : Nat) < (N : Int)
        rw [rowScatter_start0, rowScatter_window0]; omega
      | ⟨1, _⟩ =>
        show 0 ≤ (rowScatter N E C wf).start (ix2 e c') idx 1 + ((rowScatter N E C wf).window (ix2 e c') 1 : Nat)
          ∧ (rowScatter N E C wf).start (ix2 e c') idx 1 + ((rowScatter N E C wf).window (ix2 e c') 1 : Nat) < (C : Int)
        rw [rowScatter_start1, rowScatter_window1]; omega

end RowScatter

/-- the accumulated scatter at (n, c): the operand's element plus the updates (e, c) of the rows e whose start word, read SIGNED, is exactly n -/
theorem rowScatterAdd_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowScatter N E C wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [rowScatter_resultIdx_iff]
  by_cases ht : (idx (ix2 e (0 : Fin 1))).toInt = (n.val : Int)
  · simp [ht, Finset.sum_ite_eq']
  · simp [ht]

/-! ## The accumulating scatter into a flat operand -/

/-- a flat operand [N], start indices [E, 1], updates [E] -/
abbrev flatScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section FlatScatter
variable {N E w : Nat} (wf : ScatterDims.WF ⟨1, ![N]⟩ ⟨2, ![E, 1]⟩ ⟨1, ![E]⟩ [] [0] [0] 1)
  (idx : IVec ⟨2, ![E, 1]⟩ w) (e : Fin E)

/-- on the one operand axis the window starts at the start word of entry e, read signed -/
private theorem flatScatter_start0 :
    (flatScatter N E wf).start (ix1 e) idx 0 = (idx (ix2 e (0 : Fin 1))).toInt := by
  unfold ScatterDims.start
  rw [dif_pos (show (0 : Fin 1) ∈ (flatScatter N E wf).scatterDimsToOperandDims from List.mem_singleton.mpr rfl)]
  have hsi : (flatScatter N E wf).siIdx (ix1 e) ⟨List.idxOf (0 : Fin 1) (flatScatter N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- the one operand axis is inserted: its window coordinate is 0 -/
private theorem flatScatter_window0 : (flatScatter N E wf).window (ix1 e) 0 = 0 := by
  have h0 : (0 : Fin 1) ∉ (flatScatter N E wf).sKept := by
    show (0 : Fin 1) ∉ (List.finRange 1).filter (· ∉ ([0] : List (Fin 1)))
    decide
  unfold ScatterDims.window
  rw [dif_neg h0]

/-- update e lands at n exactly when its start word, read signed, is n -/
private theorem flatScatter_resultIdx_iff (n : Fin N) :
    (flatScatter N E wf).resultIdx? (ix1 e) idx = some (ix1 n) ↔ (idx (ix2 e (0 : Fin 1))).toInt = (n.val : Int) := by
  have hn := n.isLt
  unfold ScatterDims.resultIdx?
  split
  · rename_i h
    rw [Option.some.injEq]
    have hh : 0 ≤ (flatScatter N E wf).start (ix1 e) idx 0 + ((flatScatter N E wf).window (ix1 e) 0 : Nat) := (h 0).1
    rw [flatScatter_start0, flatScatter_window0] at hh
    constructor
    · intro hf
      have h0 : ((flatScatter N E wf).start (ix1 e) idx 0 + ((flatScatter N E wf).window (ix1 e) 0 : Nat)).toNat = n.val :=
        congrArg (fun f : (⟨1, ![N]⟩ : Shape).Idx => (f 0).val) hf
      rw [flatScatter_start0, flatScatter_window0] at h0
      omega
    · intro ht
      funext a; refine Fin.ext ?_
      match a with
      | ⟨0, _⟩ =>
        show ((flatScatter N E wf).start (ix1 e) idx 0 + ((flatScatter N E wf).window (ix1 e) 0 : Nat)).toNat = n.val
        rw [flatScatter_start0, flatScatter_window0]; omega
  · rename_i h
    constructor
    · intro hf; cases hf
    · intro ht
      exfalso; apply h
      intro a
      match a with
      | ⟨0, _⟩ =>
        show 0 ≤ (flatScatter N E wf).start (ix1 e) idx 0 + ((flatScatter N E wf).window (ix1 e) 0 : Nat)
          ∧ (flatScatter N E wf).start (ix1 e) idx 0 + ((flatScatter N E wf).window (ix1 e) 0 : Nat) < (N : Int)
        rw [flatScatter_start0, flatScatter_window0]; omega

end FlatScatter

/-- the accumulated scatter at n: the operand's element plus the updates e of the entries whose start word, read SIGNED, is exactly n -/
theorem flatScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (n : Fin N) :
    Ideal.hostScatterAdd (flatScatter N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, Finset.sum_filter, sum_idx1]
  refine Finset.sum_congr rfl fun e _ => ?_
  simp only [flatScatter_resultIdx_iff]

/-! ## The gather of rows -/

/-- rows gathered: operand [N, C], start indices [E, 1], result [E, C] (offset axis 1, collapsed axis 0, slice sizes ![1, C]) -/
abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- the gather at (e, c): the operand at the row the start word names, read signed and clamped into [0, N-1], same column -/
theorem rowGather_apply {α : Type} {N E C w : Nat} (hN : 0 < N) (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = _
    rw [GatherDims.batchCoord_eq_zero _ _ _ List.not_mem_nil]
    have h1 : (1 : Fin 2) ∉ ([0] : List (Fin 2)) := by decide
    have hs : (rowGather N E C wf).start (ix2 e c) idx 1 = 0 := by
      unfold GatherDims.start
      rw [dif_neg (show (1 : Fin 2) ∉ (rowGather N E C wf).startIndexMap from h1)]
    have ho : (rowGather N E C wf).offCoord (ix2 e c) 1 = c.val := by
      unfold GatherDims.offCoord
      rw [dif_pos ((GatherDims.mem_sKept _ _).mpr ⟨h1, List.not_mem_nil⟩)]
      rfl
    rw [hs, ho]
    simp

/-! ## The gather from a flat operand -/

/-- a flat operand [N], start indices [E, 1], result [E] (no offset axis, collapsed axis 0, slice sizes ![1]) -/
abbrev flatGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- the gather at e: the operand at the entry the start word names, read signed and clamped into [0, N-1] -/
theorem flatGather_apply {α : Type} {N E w : Nat} (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGather N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGather N E wf).start (ix1 e) idx 0 + (flatGather N E wf).batchCoord (ix1 e) 0
    + (flatGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.RowIndexOps

end
-- ==== Proof.LibIdxSum.lean ====
/-
  Sums over small index sets by their coordinates, and a column cast read at an index: a rank-3 index set whose first axis
  has one element is the product of the other two; with the last axis a unit too it is the middle axis alone; a vector cast
  to a one-column matrix reads its entries.
-/
import Idealize.ShloMosaic.Lib.ValueIdx
import Idealize.ShloMosaic.Lib.ValueLayout
import Idealize.ShloMosaic.Lib.Pipeline.Value

noncomputable section

open scoped BigOperators

namespace Cert.LibIdxSum

open Idealize.ShloMosaic Idealize.ShloMosaic.ValueIdx

/-- `[1, a, b]` indices are the pairs (row, column). -/
def idxEquiv1ab {a b : Nat} : (⟨3, ![1, a, b]⟩ : Shape).Idx ≃ Fin a × Fin b where
  toFun i := (i 1, i 2)
  invFun p := ix3 (0 : Fin 1) p.1 p.2
  left_inv i := by
    funext d
    match d with
    | ⟨0, _⟩ => exact Fin.ext (by have h1 : (i 0).val < 1 := (i 0).isLt; show 0 = (i 0).val; omega)
    | ⟨1, _⟩ => rfl
    | ⟨2, _⟩ => rfl
  right_inv _ := rfl

theorem sum_1ab {M : Type} [AddCommMonoid M] {a b : Nat} (f : (⟨3, ![1, a, b]⟩ : Shape).Idx → M) :
    ∑ i, f i = ∑ p : Fin a, ∑ q : Fin b, f (ix3 (0 : Fin 1) p q) := by
  rw [← Equiv.sum_comp (idxEquiv1ab (a := a) (b := b)).symm f, Fintype.sum_prod_type]
  rfl

/-- `[1, a, 1]` indices are the rows. -/
def idxEquiv1a1 {a : Nat} : (⟨3, ![1, a, 1]⟩ : Shape).Idx ≃ Fin a where
  toFun i := i 1
  invFun p := ix3 (0 : Fin 1) p (0 : Fin 1)
  left_inv i := by
    funext d
    match d with
    | ⟨0, _⟩ => exact Fin.ext (by have h1 : (i 0).val < 1 := (i 0).isLt; show 0 = (i 0).val; omega)
    | ⟨1, _⟩ => rfl
    | ⟨2, _⟩ => exact Fin.ext (by have h1 : (i 2).val < 1 := (i 2).isLt; show 0 = (i 2).val; omega)
  right_inv _ := rfl

theorem sum_1a1 {M : Type} [AddCommMonoid M] {a : Nat} (f : (⟨3, ![1, a, 1]⟩ : Shape).Idx → M) :
    ∑ i, f i = ∑ p : Fin a, f (ix3 (0 : Fin 1) p (0 : Fin 1)) := by
  rw [← Equiv.sum_comp (idxEquiv1a1 (a := a)).symm f]
  rfl

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1]` array cast to `[1, 1, 1]` reads its one entry. -/
theorem shapeCast_1_111_apply {α : Type} (x : (⟨1, ![1]⟩ : Shape).Idx → α) (h : (⟨1, ![1]⟩ : Shape).ShapeCasts ⟨3, ![1, 1, 1]⟩)
    (j : (⟨3, ![1, 1, 1]⟩ : Shape).Idx) : shapeCast ⟨3, ![1, 1, 1]⟩ x h j = x (ix1 (0 : Fin 1)) :=
  shapeCast_apply x h _ _ (by
    rw [Shape.rowMajor_val_three, Shape.rowMajor_val_one]
    have h0 : (j 0).val < 1 := (j 0).isLt; have h1 : (j 1).val < 1 := (j 1).isLt; have h2 : (j 2).val < 1 := (j 2).isLt
    show (0 : Nat) = ((j 0).val * 1 + (j 1).val) * 1 + (j 2).val
    have e0 : (j 0).val = 0 := by omega
    have e1 : (j 1).val = 0 := by omega
    have e2 : (j 2).val = 0 := by omega
    rw [e0, e1, e2])

/-- A `[1, 1]` array cast to `[1, 1, 1]` reads its one entry. -/
theorem shapeCast_11_111_apply {α : Type} (x : (⟨2, ![1, 1]⟩ : Shape).Idx → α) (h : (⟨2, ![1, 1]⟩ : Shape).ShapeCasts ⟨3, ![1, 1, 1]⟩)
    (j : (⟨3, ![1, 1, 1]⟩ : Shape).Idx) : shapeCast ⟨3, ![1, 1, 1]⟩ x h j = x (ix2 (0 : Fin 1) (0 : Fin 1)) :=
  shapeCast_apply x h _ _ (by
    rw [Shape.rowMajor_val_three, Shape.rowMajor_val_two]
    have h0 : (j 0).val < 1 := (j 0).isLt; have h1 : (j 1).val < 1 := (j 1).isLt; have h2 : (j 2).val < 1 := (j 2).isLt
    show (0 : Nat) * 1 + 0 = ((j 0).val * 1 + (j 1).val) * 1 + (j 2).val
    have e0 : (j 0).val = 0 := by omega
    have e1 : (j 1).val = 0 := by omega
    have e2 : (j 2).val = 0 := by omega
    rw [e0, e1, e2])

end Cert.LibIdxSum

end
-- ==== Proof.KAgg.lean ====
/-
  The kernel program's host operations read at an index: the degree column is `deg`, and each of the two edge
  aggregations (a gather of rows at the wrapped source words, accumulated onto zero at the destination words) is, at node
  `n` and column `k`, zero plus the sum over the edges into `n` of the gathered array's entry at the edge's source row.
-/
import proofs.«136974_j31576599560907_2_alg».proof.Proof.KHost
import proofs.«136974_j31576599560907_2_alg».proof.Proof.Spec
import proofs.«136974_j31576599560907_2_alg».proof.Proof.LibRowIndexOps
import proofs.«136974_j31576599560907_2_alg».proof.Proof.LibIdxSum
import Idealize.ShloMosaic.Lib.Pipeline.Value
import Idealize.ShloMosaic.Lib.ValueIdx
import Idealize.ShloMosaic.Lib.ValueLayout

set_option maxRecDepth 16384

noncomputable section

namespace Cert.KernelIdeal.HostValue

open Cert.KernelIdeal Cert.KernelIdeal.Gen Cert.GcnSpec Cert.RowIndexOps
open Idealize.ShloMosaic Idealize.ShloMosaic.TcCoe Idealize.ShloMosaic.ValueIdx Idealize.SL.Sem
open scoped BigOperators

/-! ## Broadcasts read at an index -/

/-- A word array spread into one column, read at row `e`. -/
theorem col_apply {α : Type} (v : S3300000.Idx → α) (e : Fin 3300000) :
    broadcastInDim S3300000x1 ![0] bcast_S3300000_S3300000x1_0 v (ix2 e (0 : Fin 1)) = v (ix1 e) :=
  broadcastInDim_apply _ bcast_S3300000_S3300000x1_0 v _ (ix1 e) (fun a => match a with
    | ⟨0, _⟩ => by show e.val = if (3300000 : Nat) = 1 then 0 else e.val; rw [if_neg (by decide)])

/-- A float constant spread over any shape. -/
theorem splat_apply (S : Shape) (hb : S_.BroadcastsInDim S (![] : Fin 0 → Fin S.rank)) (b : BitVec 32) (i : S.Idx) :
    broadcastInDim S ![] hb (constant (F := Ideal) S_ .f32 b) i = Ideal.ofBits .f32 b :=
  broadcastInDim_apply _ hb (constant (F := Ideal) S_ .f32 b) i (fun a => a.elim0) (fun a => a.elim0)

/-- An integer constant spread over any shape. -/
theorem splatI_apply (S : Shape) (hb : S_.BroadcastsInDim S (![] : Fin 0 → Fin S.rank)) (b : BitVec 32) (i : S.Idx) :
    broadcastInDim S ![] hb (constantI S_ 32 b) i = b :=
  broadcastInDim_apply _ hb (constantI S_ 32 b) i (fun a => a.elim0) (fun a => a.elim0)

/-- The wrapped index column at row `e` is the wrapped word. -/
theorem wrapCol_apply (v : S3300000.Idx → BitVec 32) (e : Fin 3300000) :
    wrapCol v (ix2 e (0 : Fin 1)) = wrapNeg (v (ix1 e)) := by
  unfold wrapCol
  rw [col_apply]
  show Scalar.select (IntOp.cmpi .slt (v (ix1 e)) (broadcastInDim S3300000 ![] bcast_S_S3300000 (constantI S_ 32 0#32) (ix1 e)))
      (IntOp.addi (v (ix1 e)) (broadcastInDim S3300000 ![] bcast_S_S3300000 (constantI S_ 32 100000#32) (ix1 e))) (v (ix1 e)) = _
  rw [splatI_apply, splatI_apply]
  rfl

/-! ## The host's accumulating scatter at the extended reals, and the printed dimension records -/

/-- At the extended reals the host's accumulating scatter is the exact sum. -/
theorem scatterAdd_ideal {s si u : Shape} (d : ScatterDims s si u) {w : Nat} (x : s.Idx → EReal) (idx : IVec si w)
    (upd : u.Idx → EReal) : Host.scatterAdd (F := Ideal) (φ := .f32) d x idx upd = Ideal.hostScatterAdd d x idx upd := rfl

/-- The printed records' side conditions, at the literal shapes and lists. -/
theorem wf_flat : ScatterDims.WF ⟨1, ![100000]⟩ ⟨2, ![3300000, 1]⟩ ⟨1, ![3300000]⟩ [] [0] [0] 1 :=
  scatter_S100000_S3300000x1_S3300000_n_0_0_1.wf
theorem wf_scatter5 : ScatterDims.WF ⟨2, ![100000, 5]⟩ ⟨2, ![3300000, 1]⟩ ⟨2, ![3300000, 5]⟩ [1] [0] [0] 1 :=
  scatter_S100000x5_S3300000x1_S3300000x5_1_0_0_1.wf
theorem wf_scatter1 : ScatterDims.WF ⟨2, ![100000, 1]⟩ ⟨2, ![3300000, 1]⟩ ⟨2, ![3300000, 1]⟩ [1] [0] [0] 1 :=
  scatter_S100000x1_S3300000x1_S3300000x1_1_0_0_1.wf
theorem wf_gather5 : GatherDims.WF ⟨2, ![100000, 5]⟩ ⟨2, ![3300000, 1]⟩ ⟨2, ![3300000, 5]⟩ [1] [0] [] [0] [] 1 ![1, 5] :=
  gather_S100000x5_S3300000x1_S3300000x5_1_0_n_n_0_1_15.wf
theorem wf_gather1 : GatherDims.WF ⟨2, ![100000, 1]⟩ ⟨2, ![3300000, 1]⟩ ⟨2, ![3300000, 1]⟩ [1] [0] [] [0] [] 1 ![1, 1] :=
  gather_S100000x1_S3300000x1_S3300000x1_1_0_n_n_0_1_11.wf

/-- The printed records are the generic ones of rows moved through one index column. -/
theorem dims_flat : scatter_S100000_S3300000x1_S3300000_n_0_0_1 = flatScatter 100000 3300000 wf_flat := rfl
theorem dims_scatter5 : scatter_S100000x5_S3300000x1_S3300000x5_1_0_0_1 = rowScatter 100000 3300000 5 wf_scatter5 := rfl
theorem dims_scatter1 : scatter_S100000x1_S3300000x1_S3300000x1_1_0_0_1 = rowScatter 100000 3300000 1 wf_scatter1 := rfl
theorem dims_gather5 : gather_S100000x5_S3300000x1_S3300000x5_1_0_n_n_0_1_15 = rowGather 100000 3300000 5 wf_gather5 := rfl
theorem dims_gather1 : gather_S100000x1_S3300000x1_S3300000x1_1_0_n_n_0_1_11 = rowGather 100000 3300000 1 wf_gather1 := rfl

/-- Ones accumulated onto zero at the destination words, as a column: the degree of each node. -/
theorem degCol_apply (dst : S3300000.Idx → BitVec 32) (n : Fin 100000) :
    shapeCast S100000x1 (Host.scatterAdd scatter_S100000_S3300000x1_S3300000_n_0_0_1
        (broadcastInDim S100000 ![] bcast_S_S100000 (constant (F := Ideal) S_ .f32 0x00000000#32))
        (broadcastInDim S3300000x1 ![0] bcast_S3300000_S3300000x1_0 dst)
        (broadcastInDim S3300000 ![] bcast_S_S3300000 (constant (F := Ideal) S_ .f32 0x3F800000#32))) shapeCasts_S100000_S100000x1
      (ix2 n (0 : Fin 1)) = deg dst n := by
  rw [Cert.LibIdxSum.shapeCast_a_a1_apply, scatterAdd_ideal, dims_flat, flatScatterAdd_apply, splat_apply]
  unfold deg inEdges
  refine congrArg (fun t => zeroW + t) ?_
  refine Finset.sum_congr ?_ (fun e _ => splat_apply _ _ _ _)
  exact Finset.filter_congr fun e _ => by rw [col_apply]

variable (m : (ℓ : Loc nD τ sig) → Buf (Elt Ideal) ℓ) (ρ : Dev nD → PrngReg) (c : Dev nD)

/-! ## The degree column -/

/-- The column the first region reads is the degree of each node. -/
theorem v11_eq_deg (n : Fin 100000) : W1 m ρ c (Proc.devRef .tc main_v11) (ix2 n (0 : Fin 1)) = deg (dstW m ρ c) n :=
  (congrFun (W1_v11 m ρ c) (ix2 n (0 : Fin 1))).trans (degCol_apply (dstW m ρ c) n)

end Cert.KernelIdeal.HostValue

end
-- ==== Proof.KAgg2.lean ====
/-
  The kernel program's two edge aggregations read at an index: each (a gather of rows at the wrapped source words, accumulated onto zero at the destination words) is, at node
  `n` and column `k`, zero plus the sum over the edges into `n` of the gathered array's entry at the edge's source row.
-/
import proofs.«136974_j31576599560907_2_alg».proof.Proof.KAgg
import proofs.«136974_j31576599560907_2_alg».proof.Proof.Spec
import proofs.«136974_j31576599560907_2_alg».proof.Proof.LibRowIndexOps
import proofs.«136974_j31576599560907_2_alg».proof.Proof.LibIdxSum
import Idealize.ShloMosaic.Lib.Pipeline.Value
import Idealize.ShloMosaic.Lib.ValueIdx
import Idealize.ShloMosaic.Lib.ValueLayout

set_option maxRecDepth 16384

noncomputable section

namespace Cert.KernelIdeal.HostValue

open Cert.KernelIdeal Cert.KernelIdeal.Gen Cert.GcnSpec Cert.RowIndexOps
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg) (c : Dev nD)

/-! ## The two edge aggregations -/

/-- Rows of five columns gathered at the wrapped source words and accumulated at the destination words. -/
theorem agg5_apply (A : S100000x5.Idx → EReal) (src dst : S3300000.Idx → BitVec 32) (n : Fin 100000) (k : Fin 5) :
    Host.scatterAdd scatter_S100000x5_S3300000x1_S3300000x5_1_0_0_1
        (broadcastInDim S100000x5 ![] bcast_S_S100000x5 (constant (F := Ideal) S_ .f32 0x00000000#32))
        (broadcastInDim S3300000x1 ![0] bcast_S3300000_S3300000x1_0 dst)
        (Host.gather gather_S100000x5_S3300000x1_S3300000x5_1_0_n_n_0_1_15 A (wrapCol src)) (ix2 n k)
      = zeroW + ∑ e ∈ inEdges dst n, A (ix2 (srcRow src e) k) := by
  rw [scatterAdd_ideal, dims_scatter5, dims_gather5, rowScatterAdd_apply, splat_apply]
  unfold inEdges
  refine congrArg (fun t => zeroW + t) ?_
  refine Finset.sum_congr ?_ (fun e _ => ?_)
  · exact Finset.filter_congr fun e _ => by rw [col_apply]
  · rw [rowGather_apply (by omega)]
    refine congrArg A (congrArg (fun r => ix2 r _) (Fin.ext ?_))
    show min (wrapCol src (ix2 e (0 : Fin 1))).toInt.toNat 99999 = min (wrapNeg (src (ix1 e))).toInt.toNat 99999
    exact congrArg (fun v : BitVec 32 => min v.toInt.toNat 99999) (wrapCol_apply src e)

/-- The same for rows of one column. -/
theorem agg1_apply (A : S100000x1.Idx → EReal) (src dst : S3300000.Idx → BitVec 32) (n : Fin 100000) :
    Host.scatterAdd scatter_S100000x1_S3300000x1_S3300000x1_1_0_0_1
        (broadcastInDim S100000x1 ![] bcast_S_S100000x1 (constant (F := Ideal) S_ .f32 0x00000000#32))
        (broadcastInDim S3300000x1 ![0] bcast_S3300000_S3300000x1_0 dst)
        (Host.gather gather_S100000x1_S3300000x1_S3300000x1_1_0_n_n_0_1_11 A (wrapCol src)) (ix2 n (0 : Fin 1))
      = zeroW + ∑ e ∈ inEdges dst n, A (ix2 (srcRow src e) (0 : Fin 1)) := by
  rw [scatterAdd_ideal, dims_scatter1, dims_gather1, rowScatterAdd_apply, splat_apply]
  unfold inEdges
  refine congrArg (fun t => zeroW + t) ?_
  refine Finset.sum_congr ?_ (fun e _ => ?_)
  · exact Finset.filter_congr fun e _ => by rw [col_apply]
  · rw [rowGather_apply (by omega)]
    refine congrArg A (congrArg (fun r => ix2 r _) (Fin.ext ?_))
    show min (wrapCol src (ix2 e (0 : Fin 1))).toInt.toNat 99999 = min (wrapNeg (src (ix1 e))).toInt.toNat 99999
    exact congrArg (fun v : BitVec 32 => min v.toInt.toNat 99999) (wrapCol_apply src e)

end Cert.KernelIdeal.HostValue

end
-- ==== Proof.KRegion02.lean ====
/-
  What the two pointwise regions leave in their output arrays, index by index, as functions of the arrays they find.

  Each region runs over 20 grid points; at point t every windowed array is read or written at its block of 5000 rows
  starting at row 5000 t (a one-by-one array is read whole at every point). The output blocks tile the 100000 rows, so
  the output array is determined everywhere: it is the body's pointwise arithmetic applied to the input arrays.

  * Region 0: from a five-column array x and a column d, the column disOf d and the array x scaled row by row by it.
  * Region 2: from two columns a, b and a one-by-one array s, the column a * b + s.

  The products and sums are those of the extended reals; they are written with their types spelled out because the
  entries of a buffer are extended reals only after their element type is computed.
-/
import proofs.«136974_j31576599560907_2_alg».proof.Proof.Gen.KernelIdeal.Frame
import proofs.«136974_j31576599560907_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region02

open Cert.KernelIdeal Cert.KernelIdeal.Gen Cert.GcnSpec Idealize.ShloMosaic Idealize.ShloMosaic.TcCoe
  Idealize.ShloMosaic.ValueIdx Idealize.SL.Sem
open Idealize.ShloMosaic.Pipeline (Dat)

variable (V : (c : Dev nD) → (b : Ref sig .tc) → Buf (Elt Ideal) ((c : Thread nD τ).loc b))

/-- Every store and load of the three bodies is at the origin of its buffer. -/
theorem off_zero : (![0, 0] : Fin 2 → Nat) = fun _ => 0 := funext fun a => by fin_cases a <;> rfl

/-! ## Region 0: `disOf` of a column, and a five-column array scaled by it row by row -/

/-- The first payload at one row of a block is `disOf` of the column's entry: the reciprocal square root of the
    entry raised to at least one where the entry is positive, zero elsewhere. -/
theorem k0_pay1_apply (v0 : Vec Ideal S5000x1 .f32) (j : S5000x1.Idx) : k0_pay1 v0 j = disOf (v0 j) := by
  unfold k0_pay1
  rw [shapeCast_self]
  rfl

/-- The second payload at one entry of a block: the five-column entry times `disOf` of the column's entry on its row. -/
theorem k0_pay2_apply (v0 : Vec Ideal S5000x1 .f32) (v10 : Vec Ideal S5000x5 .f32) (j : S5000x5.Idx) :
    k0_pay2 v0 v10 j = v10 j * disOf (v0 (ix2 (j 0) 0)) := by
  unfold k0_pay2
  show v10 j * broadcastTo S5000x5 (k0_pay1 v0) broadcasts_S5000x1_S5000x5 j = _
  rw [broadcastTo_apply (k0_pay1 v0) broadcasts_S5000x1_S5000x5 j (ix2 (j 0) 0) (fun a => by fin_cases a <;> rfl),
    k0_pay1_apply]

/-- What the single-column output ends holding: `disOf` of the input column, row by row. -/
abbrev G0_3 (d : S100000x1.Idx → EReal) : S100000x1.Idx → EReal := fun i => disOf (d i)

/-- The index of the single-column array on the row of an index of the five-column array. -/
abbrev rowOf (i : S100000x5.Idx) : S100000x1.Idx := ix2 (i 0) 0

/-- What the five-column output ends holding: each entry of the five-column input times `disOf` of the input
    column's entry on its row. -/
abbrev G0_2 (x : S100000x5.Idx → EReal) (d : S100000x1.Idx → EReal) : S100000x5.Idx → EReal :=
  fun i => x i * disOf (d (rowOf i))

/-- The block index maps over the 20 grid points: all four windows are at block row t, column 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back to the single-column output is block t of G0_3. -/
theorem flushed0_3 (c : Dev nD) (t : Fin cfg0.N) :
    (dat0 (F := Ideal) V c).flushed 3 t = ((cfg0.win 3).blk t).view.read (Elt Ideal) (G0_3 (V c main_v11)) := by
  show (cfg0.win 3).cut (grid0.coords t) ((dat0 (F := Ideal) V c).after 3 t) = _
  rw [after0_3]
  unfold out0_3
  rw [View.canon_unit_zero off_zero]
  simp only [View.ld_unit_zero (S := S5000x1) off_zero]
  obtain ⟨e00, e01, e10, e11, e20, e21, e30, e31⟩ := idx0 t
  funext j
  refine (k0_pay1_apply _ j).trans ?_
  have h1 : ((cfg0.win 1).blk t).view.emb j = ((cfg0.win 3).blk t).view.emb j := by
    funext a; apply Fin.ext
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * (j 1).val = win0_3.index t (1 : Fin 2) * 1 + 1 * (j 1).val; omega
  have key : ∀ d : S100000x1.Idx → EReal,
      disOf (d (((cfg0.win 1).blk t).view.emb j)) = disOf (d (((cfg0.win 3).blk t).view.emb j)) := by
    intro d; rw [h1]
  exact key (V c main_v11)

/-- What point t writes back to the five-column output is block t of G0_2. -/
theorem flushed0_2 (c : Dev nD) (t : Fin cfg0.N) :
    (dat0 (F := Ideal) V c).flushed 2 t
      = ((cfg0.win 2).blk t).view.read (Elt Ideal) (G0_2 (V c main_arg0) (V c main_v11)) := by
  show (cfg0.win 2).cut (grid0.coords t) ((dat0 (F := Ideal) V c).after 2 t) = _
  rw [after0_2]
  unfold out0_2
  rw [View.canon_unit_zero off_zero]
  simp only [View.ld_unit_zero (S := S5000x1) off_zero, View.ld_unit_zero (S := S5000x5) off_zero]
  obtain ⟨e00, e01, e10, e11, e20, e21, e30, e31⟩ := idx0 t
  funext j
  refine (k0_pay2_apply _ _ j).trans ?_
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 5 + 1 * (j 1).val = win0_2.index t (1 : Fin 2) * 5 + 1 * (j 1).val; omega
  have h1 : ((cfg0.win 1).blk t).view.emb (ix2 (j 0) 0) = rowOf (((cfg0.win 2).blk t).view.emb j) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  have key : ∀ (x : S100000x5.Idx → EReal) (d : S100000x1.Idx → EReal),
      x (((cfg0.win 0).blk t).view.emb j) * disOf (d (((cfg0.win 1).blk t).view.emb (ix2 (j 0) 0)))
        = x (((cfg0.win 2).blk t).view.emb j) * disOf (d (rowOf (((cfg0.win 2).blk t).view.emb j))) := by
    intro x d; rw [h0, h1]
  exact key (V c main_arg0) (V c main_v11)

/-- An index of the single-column output is in point t's block iff each coordinate is in the block's range on its axis. -/
theorem mem_blk0_3 (t : Fin cfg0.N) (i : S100000x1.Idx) :
    i ∈ ((cfg0.win 3).blk t).view.set ↔ ∀ a : Fin 2, win0_3.index t a * S5000x1.size a ≤ (i a).val
      ∧ (i a).val < win0_3.index t a * S5000x1.size a + S5000x1.size a := by
  show i ∈ ((View.whole main_v12_1).slice (win0_3.rect t)).set ↔ _
  rw [View.set_slice_whole, Rect.mem_set_unit]
  exact Iff.rfl

/-- The same for the five-column output. -/
theorem mem_blk0_2 (t : Fin cfg0.N) (i : S100000x5.Idx) :
    i ∈ ((cfg0.win 2).blk t).view.set ↔ ∀ a : Fin 2, win0_2.index t a * S5000x5.size a ≤ (i a).val
      ∧ (i a).val < win0_2.index t a * S5000x5.size a + S5000x5.size a := by
  show i ∈ ((View.whole main_v12_0).slice (win0_2.rect t)).set ↔ _
  rw [View.set_slice_whole, Rect.mem_set_unit]
  exact Iff.rfl

/-- The 20 blocks of 5000 rows tile the single-column output: row r is in the block of point r / 5000. -/
theorem covered0_3 (i : S100000x1.Idx) :
    ∃ t : Fin cfg0.N, (cfg0.win 3).flush t = true ∧ i ∈ ((cfg0.win 3).blk t).view.set := by
  have hi0 : (i 0).val < 100000 := (i 0).isLt
  have hi1 : (i 1).val < 1 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e30, e31⟩ := idx0 t
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 1 ≤ (i 1).val ∧ (i 1).val < win0_3.index t (1 : Fin 2) * 1 + 1; omega

/-- The 20 blocks of 5000 full rows tile the five-column output. -/
theorem covered0_2 (i : S100000x5.Idx) :
    ∃ t : Fin cfg0.N, (cfg0.win 2).flush t = true ∧ i ∈ ((cfg0.win 2).blk t).view.set := by
  have hi0 : (i 0).val < 100000 := (i 0).isLt
  have hi1 : (i 1).val < 5 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, e20, e21, -, -⟩ := idx0 t
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 5 ≤ (i 1).val ∧ (i 1).val < win0_2.index t (1 : Fin 2) * 5 + 5; omega

/-- The single-column output after region 0. -/
theorem final0_3 (c : Dev nD) : (dat0 (F := Ideal) V c).arrAt 3 cfg0.N = G0_3 (V c main_v11) :=
  (dat0 (F := Ideal) V c).arrAt_eq_of_cover 3 (G0_3 (V c main_v11)) (fun t _ => flushed0_3 V c t) covered0_3

/-- The five-column output after region 0. -/
theorem final0_2 (c : Dev nD) : (dat0 (F := Ideal) V c).arrAt 2 cfg0.N = G0_2 (V c main_arg0) (V c main_v11) :=
  (dat0 (F := Ideal) V c).arrAt_eq_of_cover 2 (G0_2 (V c main_arg0) (V c main_v11))
    (fun t _ => flushed0_2 V c t) covered0_2

/-- Region 0 leaves, at row n of its single-column output, `disOf` of the input column's entry there. -/
theorem arr0_3 (c : Dev nD) (n : Fin 100000) :
    (dat0 (F := Ideal) V c).arrAt 3 cfg0.N (ix2 n 0) = disOf (V c main_v11 (ix2 n 0)) :=
  congrFun (final0_3 V c) (ix2 n 0)

/-- Region 0 leaves, at row n and column k of its five-column output, the input's entry there times `disOf` of the
    input column's entry on row n. -/
theorem arr0_2 (c : Dev nD) (n : Fin 100000) (k : Fin 5) :
    (dat0 (F := Ideal) V c).arrAt 2 cfg0.N (ix2 n k)
      = @HMul.hMul EReal EReal EReal _ (V c main_arg0 (ix2 n k)) (disOf (V c main_v11 (ix2 n 0))) :=
  congrFun (final0_2 V c) (ix2 n k)

/-! ## Region 2: the product of two columns plus a single entry -/

/-- The body's arithmetic at one row of a block: the product of the two columns' entries plus the single entry of the
    one-by-one block. -/
theorem k2_pay1_apply (x0 x1 : Vec Ideal S5000x1 .f32) (x2 : Vec Ideal S1x1 .f32) (j : S5000x1.Idx) :
    k2_pay1 x0 x1 x2 j = x0 j * x1 j + x2 (ix2 0 0) := by
  unfold k2_pay1
  rw [shapeCast_self, shapeCast_self, shapeCast_self]
  show x0 j * x1 j + broadcastTo S5000x1 x2 broadcasts_S1x1_S5000x1 j = _
  rw [broadcastTo_apply x2 broadcasts_S1x1_S5000x1 j (ix2 0 0) (fun a => by fin_cases a <;> rfl)]

/-- What the output array of region 2 ends holding, as one function of the arrays the region finds: the product of the
    two columns' entries plus the single entry of the one-by-one array, row by row. -/
abbrev G2 (a0 a1 : S100000x1.Idx → EReal) (b : S1x1.Idx → EReal) : S100000x1.Idx → EReal :=
  fun i => a0 i * a1 i + b (ix2 0 0)

/-- The block index maps over the 20 grid points: the three column windows are at block row t, column 0; the
    one-by-one window stays at the origin. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of G2. -/
theorem flushed2_3 (c : Dev nD) (t : Fin cfg2.N) :
    (dat2 (F := Ideal) V c).flushed 3 t
      = ((cfg2.win 3).blk t).view.read (Elt Ideal) (G2 (V c main_v34) (V c main_v12_1) (V c main_v35)) := by
  show (cfg2.win 3).cut (grid2.coords t) ((dat2 (F := Ideal) V c).after 3 t) = _
  rw [after2_3]
  unfold out2_3
  rw [View.canon_unit_zero off_zero]
  simp only [View.ld_unit_zero (S := S5000x1) off_zero, View.ld_unit_zero (S := S1x1) off_zero]
  obtain ⟨e00, e01, e10, e11, e20, e21, e30, e31⟩ := idx2 t
  funext j
  refine (k2_pay1_apply _ _ _ j).trans ?_
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 1 + 1 * (j 1).val = win2_3.index t (1 : Fin 2) * 1 + 1 * (j 1).val; omega
  have h1 : ((cfg2.win 1).blk t).view.emb j = ((cfg2.win 3).blk t).view.emb j := by
    funext a; apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * (j 1).val = win2_3.index t (1 : Fin 2) * 1 + 1 * (j 1).val; omega
  have h2 : ((cfg2.win 2).blk t).view.emb (ix2 0 0) = (ix2 0 0 : S1x1.Idx) := by
    funext a; apply Fin.ext
    match a with
    | ⟨0, _⟩ => show win2_2.index t (0 : Fin 2) * 1 + 1 * 0 = 0; omega
    | ⟨1, _⟩ => show win2_2.index t (1 : Fin 2) * 1 + 1 * 0 = 0; omega
  have key : ∀ (a0 a1 : S100000x1.Idx → EReal) (b : S1x1.Idx → EReal),
      a0 (((cfg2.win 0).blk t).view.emb j) * a1 (((cfg2.win 1).blk t).view.emb j)
          + b (((cfg2.win 2).blk t).view.emb (ix2 0 0))
        = a0 (((cfg2.win 3).blk t).view.emb j) * a1 (((cfg2.win 3).blk t).view.emb j) + b (ix2 0 0) := by
    intro a0 a1 b; rw [h0, h1, h2]
  exact key (V c main_v34) (V c main_v12_1) (V c main_v35)

/-- An index of the array is in point t's block iff each coordinate is in the block's range on its axis. -/
theorem mem_blk2_3 (t : Fin cfg2.N) (i : S100000x1.Idx) :
    i ∈ ((cfg2.win 3).blk t).view.set ↔ ∀ a : Fin 2, win2_3.index t a * S5000x1.size a ≤ (i a).val
      ∧ (i a).val < win2_3.index t a * S5000x1.size a + S5000x1.size a := by
  show i ∈ ((View.whole main_v36).slice (win2_3.rect t)).set ↔ _
  rw [View.set_slice_whole, Rect.mem_set_unit]
  exact Iff.rfl

/-- The 20 blocks of 5000 rows tile the 100000 rows: row r is in the block of point r / 5000. -/
theorem covered2_3 (i : S100000x1.Idx) :
    ∃ t : Fin cfg2.N, (cfg2.win 3).flush t = true ∧ i ∈ ((cfg2.win 3).blk t).view.set := by
  have hi0 : (i 0).val < 100000 := (i 0).isLt
  have hi1 : (i 1).val < 1 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, e30, e31⟩ := idx2 t
  refine ⟨t, flush2_3 t, ?_⟩
  rw [mem_blk2_3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 1 ≤ (i 1).val ∧ (i 1).val < win2_3.index t (1 : Fin 2) * 1 + 1; omega

/-- The output array of region 2 after the region. -/
theorem final2_3 (c : Dev nD) :
    (dat2 (F := Ideal) V c).arrAt 3 cfg2.N = G2 (V c main_v34) (V c main_v12_1) (V c main_v35) :=
  (dat2 (F := Ideal) V c).arrAt_eq_of_cover 3 (G2 (V c main_v34) (V c main_v12_1) (V c main_v35))
    (fun t _ => flushed2_3 V c t) covered2_3

/-- Region 2 leaves, at row n, the product of the two columns' entries there plus the one-by-one array's entry. -/
theorem arr2_3 (c : Dev nD) (n : Fin 100000) :
    (dat2 (F := Ideal) V c).arrAt 3 cfg2.N (ix2 n 0)
      = @HAdd.hAdd EReal EReal EReal _
          (@HMul.hMul EReal EReal EReal _ (V c main_v34 (ix2 n 0)) (V c main_v12_1 (ix2 n 0)))
          (V c main_v35 (ix2 0 0)) :=
  congrFun (final2_3 V c) (ix2 n 0)

end Cert.KernelIdeal.Region02

end
-- ==== Proof.KRegion1.lean ====
/-
  Region 1, index by index: what the output array holds after the region, as a function of the arrays the region finds.

  The body works on a block of 5000 rows: it scales the block's rows of features by the rows' factors, multiplies by the
  first weight matrix ([5000,5] by [5,16], accumulated onto zero), adds the bias row, rectifies, multiplies by the second
  weight matrix ([5000,16] by [16,1], onto zero) and scales the rows by the factors again. Read at a row (`pay_apply`),
  that is two finite sums. The 20 blocks tile the 100000 rows, block `t` holding rows `5000 t … 5000 t + 4999`, and the
  three small arrays are staged whole, so row `n` of the output array is the same arithmetic on row `n` of the two long
  arrays (`row1`, `arr1_5`).
-/
import proofs.«136974_j31576599560907_2_alg».proof.Proof.Gen.KernelIdeal.Frame
import proofs.«136974_j31576599560907_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.GcnSpec Idealize.ShloMosaic Idealize.ShloMosaic.TcCoe
  Idealize.ShloMosaic.ValueIdx Idealize.SL.Sem
open Idealize.ShloMosaic.Pipeline (Dat)
open scoped BigOperators

/-! ## The two layout operations and the two products of the body, read at an index -/

/-- A one-column block laid along every column: entry (r, k) is the column's entry at row r. -/
theorem bcastCol_apply {α : Type} (x : S5000x1.Idx → α) (h : S5000x1.Broadcasts S5000x5) (r : Fin 5000) (k : Fin 5) :
    broadcastTo S5000x5 x h (ix2 r k) = x (ix2 r 0) :=
  broadcastTo_apply x h (ix2 r k) (ix2 r 0) (by
    intro a
    match a with
    | ⟨0, _⟩ => rfl
    | ⟨1, _⟩ => rfl)

/-- A one-row block laid along every row: entry (r, j) is the row's entry at column j. -/
theorem bcastRow_apply {α : Type} (x : S1x16.Idx → α) (h : S1x16.Broadcasts S5000x16) (r : Fin 5000) (j : Fin 16) :
    broadcastTo S5000x16 x h (ix2 r j) = x (ix2 0 j) :=
  broadcastTo_apply x h (ix2 r j) (ix2 0 j) (by
    intro a
    match a with
    | ⟨0, _⟩ => rfl
    | ⟨1, _⟩ => rfl)

/-- The first product, [5000,5] by [5,16] onto zero, at (r, j): the sum over the 5 contracted coordinates. -/
theorem matmul1_apply {φ₁ φ₂ : FTy} (A : FVec Ideal S5000x5 φ₁) (B : FVec Ideal S5x16 φ₂) (r : Fin 5000) (j : Fin 16) :
    matmul dot_S5000x5_S5x16_S5000x16_1_0_0_1_n_n none A B (constant S5000x16 .f32 0x00000000#32) (ix2 r j)
      = ∑ k : Fin 5, A (ix2 r k) * B (ix2 k j) := by
  show FloatOps.matmul dot_S5000x5_S5x16_S5000x16_1_0_0_1_n_n none A B (constant S5000x16 .f32 0x00000000#32) (ix2 r j) = _
  rw [Ideal.matmul_constant_zero_apply,
    ← Equiv.sum_comp (contrEquiv1 dot_S5000x5_S5x16_S5000x16_1_0_0_1_n_n 5 rfl rfl).symm]
  refine Finset.sum_congr rfl fun k _ => ?_
  have ck := contrEquiv1_symm_val dot_S5000x5_S5x16_S5000x16_1_0_0_1_n_n 5 rfl rfl k
  have hl : dot_S5000x5_S5x16_S5000x16_1_0_0_1_n_n.lhsIdx (ix2 r j)
      ((contrEquiv1 dot_S5000x5_S5x16_S5000x16_1_0_0_1_n_n 5 rfl rfl).symm k) = ix2 r k := by
    funext ax; apply Fin.ext
    match ax with
    | ⟨0, _⟩ => simp [DotDims.lhsIdx, dot_S5000x5_S5x16_S5000x16_1_0_0_1_n_n]; rfl
    | ⟨1, _⟩ => simp [DotDims.lhsIdx, dot_S5000x5_S5x16_S5000x16_1_0_0_1_n_n]; exact ck
  have hr : dot_S5000x5_S5x16_S5000x16_1_0_0_1_n_n.rhsIdx (ix2 r j)
      ((contrEquiv1 dot_S5000x5_S5x16_S5000x16_1_0_0_1_n_n 5 rfl rfl).symm k) = ix2 k j := by
    funext ax; apply Fin.ext
    match ax with
    | ⟨0, _⟩ => simp [DotDims.rhsIdx, dot_S5000x5_S5x16_S5000x16_1_0_0_1_n_n]; exact ck
    | ⟨1, _⟩ => simp [DotDims.rhsIdx, dot_S5000x5_S5x16_S5000x16_1_0_0_1_n_n]; rfl
  rw [hl, hr]

/-- The second product, [5000,16] by [16,1] onto zero, at (r, c): the sum over the 16 contracted coordinates. -/
theorem matmul2_apply {φ₁ φ₂ : FTy} (A : FVec Ideal S5000x16 φ₁) (B : FVec Ideal S16x1 φ₂) (r : Fin 5000) (c : Fin 1) :
    matmul dot_S5000x16_S16x1_S5000x1_1_0_0_1_n_n none A B (constant S5000x1 .f32 0x00000000#32) (ix2 r c)
      = ∑ j : Fin 16, A (ix2 r j) * B (ix2 j c) := by
  show FloatOps.matmul dot_S5000x16_S16x1_S5000x1_1_0_0_1_n_n none A B (constant S5000x1 .f32 0x00000000#32) (ix2 r c) = _
  rw [Ideal.matmul_constant_zero_apply,
    ← Equiv.sum_comp (contrEquiv1 dot_S5000x16_S16x1_S5000x1_1_0_0_1_n_n 16 rfl rfl).symm]
  refine Finset.sum_congr rfl fun j _ => ?_
  have cj := contrEquiv1_symm_val dot_S5000x16_S16x1_S5000x1_1_0_0_1_n_n 16 rfl rfl j
  have hl : dot_S5000x16_S16x1_S5000x1_1_0_0_1_n_n.lhsIdx (ix2 r c)
      ((contrEquiv1 dot_S5000x16_S16x1_S5000x1_1_0_0_1_n_n 16 rfl rfl).symm j) = ix2 r j := by
    funext ax; apply Fin.ext
    match ax with
    | ⟨0, _⟩ => simp [DotDims.lhsIdx, dot_S5000x16_S16x1_S5000x1_1_0_0_1_n_n]; rfl
    | ⟨1, _⟩ => simp [DotDims.lhsIdx, dot_S5000x16_S16x1_S5000x1_1_0_0_1_n_n]; exact cj
  have hr : dot_S5000x16_S16x1_S5000x1_1_0_0_1_n_n.rhsIdx (ix2 r c)
      ((contrEquiv1 dot_S5000x16_S16x1_S5000x1_1_0_0_1_n_n 16 rfl rfl).symm j) = ix2 j c := by
    funext ax; apply Fin.ext
    match ax with
    | ⟨0, _⟩ => simp [DotDims.rhsIdx, dot_S5000x16_S16x1_S5000x1_1_0_0_1_n_n]; exact cj
    | ⟨1, _⟩ => simp [DotDims.rhsIdx, dot_S5000x16_S16x1_S5000x1_1_0_0_1_n_n]
  rw [hl, hr]

/-- THE BODY AT A ROW: the rows scaled, times the first weights, plus the bias row, rectified, times the second
    weights, scaled again. -/
theorem pay_apply (d : Vec Ideal S5000x1 .f32) (a : Vec Ideal S5000x5 .f32) (w1 : Vec Ideal S5x16 .f32)
    (b : Vec Ideal S1x16 .f32) (w2 : Vec Ideal S16x1 .f32) (r : Fin 5000) :
    k1_pay1 d a w1 b w2 (ix2 r 0)
      = (∑ j : Fin 16, max ((∑ k : Fin 5, (a (ix2 r k) * d (ix2 r 0)) * w1 (ix2 k j)) + b (ix2 0 j)) zeroW
            * w2 (ix2 j 0)) * d (ix2 r 0) := by
  unfold k1_pay1
  simp only [shapeCast_self]
  rw [mulf_apply, matmul2_apply]
  refine congrArg (· * d (ix2 r 0)) (Finset.sum_congr rfl fun j _ => ?_)
  rw [truncf_apply, truncf_apply, maximumf_apply, addf_apply, matmul1_apply, bcastRow_apply, broadcast_apply]
  refine congrArg (fun s => max (s + b (ix2 0 j)) _ * w2 (ix2 j 0)) (Finset.sum_congr rfl fun k _ => ?_)
  rw [truncf_apply, truncf_apply, mulf_apply, bcastCol_apply]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 20 grid points: the two row-blocked inputs and the output sit at block
    (t, 0); the three small arrays are staged whole, at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `n` of the region's output from the five arrays it reads: the row of features scaled by the row's factor, times
    the first weights, plus the bias row, rectified, times the second weights, scaled by the factor again. -/
abbrev row1 (x : S100000x5.Idx → EReal) (d : S100000x1.Idx → EReal) (w1 : S5x16.Idx → EReal) (b : S1x16.Idx → EReal)
    (w2 : S16x1.Idx → EReal) (n : Fin 100000) : EReal :=
  (∑ j : Fin 16, max ((∑ k : Fin 5, (x (ix2 n k) * d (ix2 n 0)) * w1 (ix2 k j)) + b (ix2 0 j)) zeroW * w2 (ix2 j 0))
    * d (ix2 n 0)

/-- What the output array ends holding, as one function of the arrays the region finds: row by row, `row1`. -/
abbrev G (c : Dev nD) : S100000x1.Idx → EReal := fun i =>
  row1 (V c main_v22) (V c main_v12_1) (V c main_arg2) (V c main_v23) (V c main_arg4) (i 0)

/-- Block `t` of the features: its row `r` is row `t * 5000 + r` of the array. -/
theorem blk0_apply (c : Dev nD) (t : Fin cfg1.N) (r : Fin 5000) (k : Fin 5) (n : Fin 100000)
    (hn : n.val = t.val * 5000 + r.val) :
    iblk1 V c 0 t (ix2 r k) = (V c main_v22 : S100000x5.Idx → EReal) (ix2 n k) := by
  obtain ⟨e0, e1, -⟩ := idx_facts t
  show (V c main_v22 : S100000x5.Idx → EReal) (((cfg1.win 0).blk t).view.emb (ix2 r k)) = _
  refine congrArg _ (funext fun a => Fin.ext ?_)
  match a with
  | ⟨0, _⟩ => show win1_0.index t (0 : Fin 2) * 5000 + 1 * r.val = n.val; omega
  | ⟨1, _⟩ => show win1_0.index t (1 : Fin 2) * 5 + 1 * k.val = k.val; omega

/-- Block `t` of the factor column. -/
theorem blk1_apply (c : Dev nD) (t : Fin cfg1.N) (r : Fin 5000) (n : Fin 100000)
    (hn : n.val = t.val * 5000 + r.val) :
    iblk1 V c 1 t (ix2 r 0) = (V c main_v12_1 : S100000x1.Idx → EReal) (ix2 n 0) := by
  obtain ⟨-, -, e0, e1, -⟩ := idx_facts t
  show (V c main_v12_1 : S100000x1.Idx → EReal) (((cfg1.win 1).blk t).view.emb (ix2 r 0)) = _
  refine congrArg _ (funext fun a => Fin.ext ?_)
  match a with
  | ⟨0, _⟩ => show win1_1.index t (0 : Fin 2) * 5000 + 1 * r.val = n.val; omega
  | ⟨1, _⟩ => show win1_1.index t (1 : Fin 2) * 1 + 1 * 0 = 0; omega

/-- The first weights are staged whole. -/
theorem blk2_apply (c : Dev nD) (t : Fin cfg1.N) (k : Fin 5) (j : Fin 16) :
    iblk1 V c 2 t (ix2 k j) = (V c main_arg2 : S5x16.Idx → EReal) (ix2 k j) := by
  obtain ⟨-, -, -, -, e0, e1, -⟩ := idx_facts t
  show (V c main_arg2 : S5x16.Idx → EReal) (((cfg1.win 2).blk t).view.emb (ix2 k j)) = _
  refine congrArg _ (funext fun a => Fin.ext ?_)
  match a with
  | ⟨0, _⟩ => show win1_2.index t (0 : Fin 2) * 5 + 1 * k.val = k.val; omega
  | ⟨1, _⟩ => show win1_2.index t (1 : Fin 2) * 16 + 1 * j.val = j.val; omega

/-- The bias row is staged whole. -/
theorem blk3_apply (c : Dev nD) (t : Fin cfg1.N) (j : Fin 16) :
    iblk1 V c 3 t (ix2 0 j) = (V c main_v23 : S1x16.Idx → EReal) (ix2 0 j) := by
  obtain ⟨-, -, -, -, -, -, e0, e1, -⟩ := idx_facts t
  show (V c main_v23 : S1x16.Idx → EReal) (((cfg1.win 3).blk t).view.emb (ix2 0 j)) = _
  refine congrArg _ (funext fun a => Fin.ext ?_)
  match a with
  | ⟨0, _⟩ => show win1_3.index t (0 : Fin 2) * 1 + 1 * 0 = 0; omega
  | ⟨1, _⟩ => show win1_3.index t (1 : Fin 2) * 16 + 1 * j.val = j.val; omega

/-- The second weights are staged whole. -/
theorem blk4_apply (c : Dev nD) (t : Fin cfg1.N) (j : Fin 16) :
    iblk1 V c 4 t (ix2 j 0) = (V c main_arg4 : S16x1.Idx → EReal) (ix2 j 0) := by
  obtain ⟨-, -, -, -, -, -, -, -, e0, e1, -⟩ := idx_facts t
  show (V c main_arg4 : S16x1.Idx → EReal) (((cfg1.win 4).blk t).view.emb (ix2 j 0)) = _
  refine congrArg _ (funext fun a => Fin.ext ?_)
  match a with
  | ⟨0, _⟩ => show win1_4.index t (0 : Fin 2) * 16 + 1 * j.val = j.val; omega
  | ⟨1, _⟩ => show win1_4.index t (1 : Fin 2) * 1 + 1 * 0 = 0; omega

/-- WHAT POINT `t` WRITES BACK is block `t` of `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x1) hz, View.ld_unit_zero (S := S5000x5) hz, View.ld_unit_zero (S := S5x16) hz,
    View.ld_unit_zero (S := S1x16) hz, View.ld_unit_zero (S := S16x1) hz]
  funext y
  have hy0 : (y 0).val < 5000 := (y 0).isLt
  have hy1 : (y 1).val < 1 := (y 1).isLt
  have ht : t.val < 20 := t.isLt
  obtain ⟨-, -, -, -, -, -, -, -, -, -, e0, e1⟩ := idx_facts t
  have hn : t.val * 5000 + (y 0).val < 100000 := by omega
  -- the element's place in the block, and in the array
  have hidx : (cfg1.win 5).xinj (grid1.coords t) y = ix2 (⟨(y 0).val, hy0⟩ : Fin 5000) (0 : Fin 1) := by
    funext a; apply Fin.ext
    match a with
    | ⟨0, _⟩ => rfl
    | ⟨1, _⟩ => show (y 1).val = 0; omega
  have hemb : ((cfg1.win 5).blk t).view.emb y = ix2 (⟨t.val * 5000 + (y 0).val, hn⟩ : Fin 100000) (0 : Fin 1) := by
    funext a; apply Fin.ext
    match a with
    | ⟨0, _⟩ => show win1_5.index t (0 : Fin 2) * 5000 + 1 * (y 0).val = t.val * 5000 + (y 0).val; omega
    | ⟨1, _⟩ => show win1_5.index t (1 : Fin 2) * 1 + 1 * (y 1).val = 0; omega
  show k1_pay1 (iblk1 V c 1 t) (iblk1 V c 0 t) (iblk1 V c 2 t) (iblk1 V c 3 t) (iblk1 V c 4 t)
      ((cfg1.win 5).xinj (grid1.coords t) y) = G V c (((cfg1.win 5).blk t).view.emb y)
  rw [hidx, hemb, pay_apply]
  show _ = row1 (V c main_v22) (V c main_v12_1) (V c main_arg2) (V c main_v23) (V c main_arg4)
      (⟨t.val * 5000 + (y 0).val, hn⟩ : Fin 100000)
  rw [blk1_apply V c t ⟨(y 0).val, hy0⟩ ⟨t.val * 5000 + (y 0).val, hn⟩ rfl]
  refine congrArg (· * _) (Finset.sum_congr rfl fun j _ => ?_)
  rw [blk3_apply, blk4_apply]
  refine congrArg (fun s => max (s + _) _ * _) (Finset.sum_congr rfl fun k _ => ?_)
  rw [blk0_apply V c t ⟨(y 0).val, hy0⟩ k ⟨t.val * 5000 + (y 0).val, hn⟩ rfl, blk2_apply]

/-- An index of the array is in point `t`'s block iff each coordinate is in the block's range on its axis. -/
theorem mem_blk (t : Fin cfg1.N) (i : S100000x1.Idx) :
    i ∈ ((cfg1.win 5).blk t).view.set ↔ ∀ a : Fin 2, win1_5.index t a * S5000x1.size a ≤ (i a).val
      ∧ (i a).val < win1_5.index t a * S5000x1.size a + S5000x1.size a := by
  show i ∈ ((View.whole main_v24).slice (win1_5.rect t)).set ↔ _
  rw [View.set_slice_whole, Rect.mem_set_unit]
  exact Iff.rfl

/-- The 20 blocks of 5000 rows tile the 100000 rows: row `r` is in the block of point `r / 5000`. -/
theorem cover (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  have ht : (i 0).val / 5000 < 20 := by omega
  refine ⟨⟨(i 0).val / 5000, ht⟩, flush1_5 _, ?_⟩
  obtain ⟨-, -, -, -, -, -, -, -, -, -, e0, e1⟩ := idx_facts ⟨(i 0).val / 5000, ht⟩
  have e0' : win1_5.index ⟨(i 0).val / 5000, ht⟩ (0 : Fin 2) = (i 0).val / 5000 := e0
  rw [mem_blk]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    omega
  | ⟨1, _⟩ =>
    show win1_5.index ⟨(i 0).val / 5000, ht⟩ (1 : Fin 2) * 1 ≤ (i 1).val
      ∧ (i 1).val < win1_5.index ⟨(i 0).val / 5000, ht⟩ (1 : Fin 2) * 1 + 1
    omega

/-- THE ARRAY after the region: `G` of the arrays the region finds. -/
theorem final (c : Dev nD) : (dat1 (F := Ideal) V c).arrAt 5 cfg1.N = G V c :=
  (dat1 V c).arrAt_eq_of_cover 5 (G V c) (fun t _ => flushed_eq V c t) cover

/-- Row `n` of the output array after the region. -/
theorem arr1_5 (c : Dev nD) (n : Fin 100000) :
    (dat1 (F := Ideal) V c).arrAt 5 cfg1.N (ix2 n 0)
      = row1 (V c main_v22) (V c main_v12_1) (V c main_arg2) (V c main_v23) (V c main_arg4) n :=
  congrFun (final V c) (ix2 n 0)

end Cert.KernelIdeal.Region1

end
-- ==== Proof.KValue.lean ====
/-
  The idealized kernel program's result, node by node: the kernel's arrangement `outK` of the specification, at the edge
  words the first host stretch leaves and the argument arrays as launched.

  Read from the end: the last region multiplies the second edge aggregation by the factor column and adds the second bias;
  the second aggregation sums, over the edges into a node, what the middle region left at the edge's source row; the middle
  region's row is the hidden layer of the first aggregation (scaled, multiplied by the first weights, biased, rectified)
  times the second weights, scaled; the first aggregation sums the scaled features the first region left; and the first
  region's two arrays are the features times the factor, and the factor `deg ^ (-1/2)` of the degree column.
-/
import proofs.«136974_j31576599560907_2_alg».proof.Proof.KAgg2
import proofs.«136974_j31576599560907_2_alg».proof.Proof.KRegion02
import proofs.«136974_j31576599560907_2_alg».proof.Proof.KRegion1

set_option maxRecDepth 16384

noncomputable section

namespace Cert.KernelIdeal.HostValue

open Cert.KernelIdeal Cert.KernelIdeal.Gen Cert.GcnSpec
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg) (c : Dev nD)

/-- Every index of an `[a, 1]` array is `(n, 0)`. -/
theorem exists_col {a : Nat} (i : (⟨2, ![a, 1]⟩ : Shape).Idx) : ∃ n : Fin a, i = ix2 n (0 : Fin 1) :=
  ⟨i 0, funext fun d => match d with
    | ⟨0, _⟩ => rfl
    | ⟨1, _⟩ => Fin.ext (by have h := idx2_lt1 i; show (i 1).val = 0; omega)⟩

/-- The factor column the first region leaves is `dis`. -/
theorem disA_eq : disA m ρ c = fun i => dis (dstW m ρ c) (i 0) := by
  funext i
  obtain ⟨n, rfl⟩ := exists_col i
  show (dat0 (V1 m ρ) c).arrAt 3 cfg0.N (ix2 n (0 : Fin 1)) = _
  rw [Cert.KernelIdeal.Region02.arr0_3 (V1 m ρ) c n]
  show disOf (W1 m ρ c (Proc.devRef .tc main_v11) (ix2 n (0 : Fin 1))) = _
  rw [v11_eq_deg]
  rfl

/-- The scaled features the first region leaves. -/
theorem xsA_eq : (dat0 (V1 m ρ) c).arrAt 2 cfg0.N
    = fun i => xs (dstW m ρ c) (m ((c : Thread nD τ).loc main_arg0)) (i 0) (i 1) := by
  funext i
  obtain ⟨n, k, rfl⟩ : ∃ (n : Fin 100000) (k : Fin 5), i = ix2 n k := ⟨i 0, i 1, eq_ix2 i⟩
  rw [Cert.KernelIdeal.Region02.arr0_2 (V1 m ρ) c n k]
  have e0 : V1 m ρ c main_arg0 = m ((c : Thread nD τ).loc main_arg0) := W1_arg0 m ρ c
  have e1 : V1 m ρ c main_v11 (ix2 n (0 : Fin 1)) = deg (dstW m ρ c) n := v11_eq_deg m ρ c n
  rw [e0, e1]
  rfl

/-- The first edge aggregation. -/
theorem v22_eq : W3 m ρ c (Proc.devRef .tc main_v22)
    = fun i => agg1 (srcW m ρ c) (dstW m ρ c) (m ((c : Thread nD τ).loc main_arg0)) (i 0) (i 1) := by
  funext i
  obtain ⟨n, k, rfl⟩ : ∃ (n : Fin 100000) (k : Fin 5), i = ix2 n k := ⟨i 0, i 1, eq_ix2 i⟩
  rw [W3_v22, agg5_apply, xsA_eq]
  rfl

/-- The first bias as a row. -/
theorem v23_eq : W3 m ρ c (Proc.devRef .tc main_v23) = fun i => m ((c : Thread nD τ).loc main_arg3) (ix1 (i 1)) := by
  funext i
  obtain ⟨u, j, rfl⟩ : ∃ (u : Fin 1) (j : Fin 16), i = ix2 u j := ⟨i 0, i 1, eq_ix2 i⟩
  rw [W3_v23, shapeCast_a_1a_apply]
  rfl

/-- What the middle region leaves: the hidden layer times the second weights, scaled. -/
theorem v24_eq : (dat1 (V3 m ρ) c).arrAt 5 cfg1.N
    = fun i => pK (srcW m ρ c) (dstW m ρ c) (m ((c : Thread nD τ).loc main_arg0)) (m ((c : Thread nD τ).loc main_arg2))
        (m ((c : Thread nD τ).loc main_arg3)) (m ((c : Thread nD τ).loc main_arg4)) (i 0) := by
  funext i
  obtain ⟨n, rfl⟩ := exists_col i
  rw [Cert.KernelIdeal.Region1.arr1_5 (V3 m ρ) c n]
  show Cert.KernelIdeal.Region1.row1 (W3 m ρ c (Proc.devRef .tc main_v22)) (W3 m ρ c (Proc.devRef .tc main_v12_1))
      (W3 m ρ c (Proc.devRef .tc main_arg2)) (W3 m ρ c (Proc.devRef .tc main_v23)) (W3 m ρ c (Proc.devRef .tc main_arg4)) n = _
  rw [v22_eq, W3_v12_1, disA_eq, W3_arg2, v23_eq, W3_arg4]
  rfl

/-- The second edge aggregation. -/
theorem v34_eq : W5 m ρ c (Proc.devRef .tc main_v34)
    = fun i => agg2 (srcW m ρ c) (dstW m ρ c) (m ((c : Thread nD τ).loc main_arg0)) (m ((c : Thread nD τ).loc main_arg2))
        (m ((c : Thread nD τ).loc main_arg3)) (m ((c : Thread nD τ).loc main_arg4)) (i 0) := by
  funext i
  obtain ⟨n, rfl⟩ := exists_col i
  rw [W5_v34, agg1_apply, v24_eq]
  rfl

/-- THE KERNEL PROGRAM'S RESULT at node `n`. -/
theorem kernel_value (n : Fin 100000) :
    W6 m ρ c (Proc.devRef .tc main_v36) (ix2 n (0 : Fin 1))
      = outK (srcW m ρ c) (dstW m ρ c) (m ((c : Thread nD τ).loc main_arg0)) (m ((c : Thread nD τ).loc main_arg2))
          (m ((c : Thread nD τ).loc main_arg3)) (m ((c : Thread nD τ).loc main_arg4)) (m ((c : Thread nD τ).loc main_arg5)) n := by
  rw [show W6 m ρ c (Proc.devRef .tc main_v36) = (dat2 (V5 m ρ) c).arrAt 3 cfg2.N from W6_arr m ρ c 3]
  rw [Cert.KernelIdeal.Region02.arr2_3 (V5 m ρ) c n]
  have e34 : V5 m ρ c main_v34 = _ := v34_eq m ρ c
  have e12 : V5 m ρ c main_v12_1 = _ := (W5_v12_1 m ρ c).trans (disA_eq m ρ c)
  have e35 : V5 m ρ c main_v35 (ix2 (0 : Fin 1) (0 : Fin 1)) = m ((c : Thread nD τ).loc main_arg5) (ix1 (0 : Fin 1)) := by
    show W5 m ρ c (Proc.devRef .tc main_v35) (ix2 (0 : Fin 1) (0 : Fin 1)) = _
    rw [W5_v35, shapeCast_a_1a_apply]
  rw [e34, e12, e35]
  rfl

end Cert.KernelIdeal.HostValue

end
-- ==== Proof.RefValue.lean ====
/-
  The idealized reference program's result, read node by node: it is the reference arrangement of the two-layer normalised
  graph aggregation (outR of the shared specification).

  Bottom-up, one lemma per stage, each at an index built from literal coordinates:
  * the degree (ones accumulated onto zero along the destination words) and its inverse square root, zero where the degree
    is not positive — computed twice by the program, once per layer;
  * the six index columns: a source or destination word with a negative value wrapped by the node count;
  * the gathers: the factor at an edge's source row and at its destination row, whose product is the edge's weight, and the
    row of (features times first weights) at the edge's source row;
  * the first layer: the weighted rows accumulated along the destination words, plus the bias, rectified;
  * the second layer: the hidden layer times the second weights, gathered, weighted, accumulated, plus the bias.
  The source and destination word arrays (two concatenations) stay opaque throughout.
-/
import proofs.«136974_j31576599560907_2_alg».proof.Proof.RefRead
import proofs.«136974_j31576599560907_2_alg».proof.Proof.Spec
import proofs.«136974_j31576599560907_2_alg».proof.Proof.LibRowIndexOps
import Idealize.ShloMosaic.PureOps.Ideal
import Idealize.ShloMosaic.Lib.ValueIdx

noncomputable section

open scoped BigOperators

namespace Cert.ReferenceIdeal.RefValue

open Cert.ReferenceIdeal Cert.ReferenceIdeal.ReadP Cert.GcnSpec Idealize.ShloMosaic Idealize.ShloMosaic.ValueIdx

/-- a row read signed and clamped into the 100000 rows, however the bound is proved -/
theorem clampRow_eq (v : BitVec 32) (h : min v.toInt.toNat (100000 - 1) < 100000) :
    (⟨min v.toInt.toNat (100000 - 1), h⟩ : Fin 100000) = clampRow v := rfl

/-- at the ideal instance the host's accumulating scatter is the exact one -/
theorem scatterAdd_ideal {s si u : Shape} (d : ScatterDims s si u) {w : Nat} (x : s.Idx → EReal) (idx : IVec si w)
    (upd : u.Idx → EReal) :
    Host.scatterAdd (F := Ideal) (φ := .f32) d x idx upd = Ideal.hostScatterAdd d x idx upd := rfl

/-- the program's flat scatter record is the generic one -/
theorem dimsFlatScatter : scatter_S100000_S3300000x1_S3300000_n_0_0_1
    = Cert.RowIndexOps.flatScatter 100000 3300000 Cert.ReferenceIdeal.Gen.scatter_S100000_S3300000x1_S3300000_n_0_0_1_wf := rfl
/-- the program's flat gather record is the generic one -/
theorem dimsFlatGather : gather_S100000_S3300000x1_S3300000_n_0_n_n_0_1_1
    = Cert.RowIndexOps.flatGather 100000 3300000 Cert.ReferenceIdeal.Gen.gather_S100000_S3300000x1_S3300000_n_0_n_n_0_1_1_wf := rfl
/-- the program's 16-column row gather record is the generic one -/
theorem dimsRowGather16 : gather_S100000x16_S3300000x1_S3300000x16_1_0_n_n_0_1_116
    = Cert.RowIndexOps.rowGather 100000 3300000 16 Cert.ReferenceIdeal.Gen.gather_S100000x16_S3300000x1_S3300000x16_1_0_n_n_0_1_116_wf := rfl
/-- the program's 16-column row scatter record is the generic one -/
theorem dimsRowScatter16 : scatter_S100000x16_S3300000x1_S3300000x16_1_0_0_1
    = Cert.RowIndexOps.rowScatter 100000 3300000 16 Cert.ReferenceIdeal.Gen.scatter_S100000x16_S3300000x1_S3300000x16_1_0_0_1_wf := rfl
/-- the program's one-column row gather record is the generic one -/
theorem dimsRowGather1 : gather_S100000x1_S3300000x1_S3300000x1_1_0_n_n_0_1_11
    = Cert.RowIndexOps.rowGather 100000 3300000 1 Cert.ReferenceIdeal.Gen.gather_S100000x1_S3300000x1_S3300000x1_1_0_n_n_0_1_11_wf := rfl
/-- the program's one-column row scatter record is the generic one -/
theorem dimsRowScatter1 : scatter_S100000x1_S3300000x1_S3300000x1_1_0_0_1
    = Cert.RowIndexOps.rowScatter 100000 3300000 1 Cert.ReferenceIdeal.Gen.scatter_S100000x1_S3300000x1_S3300000x1_1_0_0_1_wf := rfl

/-- the node count is positive -/
theorem nodes_pos : 0 < 100000 := by decide

/-! ## The degree and the normalisation factor -/

/-- the start-index column of operation 10 at row e is the destination word of edge e -/
theorem col10 (x1 : (⟨S2x3200000, .i32⟩ : BufTy).Contents (Elt Ideal)) (e : Fin 3300000) :
    val_main_v10 (F := Ideal) x1 (ix2 e (0 : Fin 1)) = val_main_v6 (F := Ideal) x1 (ix1 e) := by
  rw [val_main_v10_apply]
  congr 1
  funext a
  match a with
  | ⟨0, _⟩ => rfl

/-- the start-index column of operation 44 at row e is the destination word of edge e -/
theorem col44 (x1 : (⟨S2x3200000, .i32⟩ : BufTy).Contents (Elt Ideal)) (e : Fin 3300000) :
    val_main_v44 (F := Ideal) x1 (ix2 e (0 : Fin 1)) = val_main_v6 (F := Ideal) x1 (ix1 e) := by
  rw [val_main_v44_apply]
  congr 1
  funext a
  match a with
  | ⟨0, _⟩ => rfl

/-- the start-index column of operation 53 at row e is the destination word of edge e -/
theorem col53 (x1 : (⟨S2x3200000, .i32⟩ : BufTy).Contents (Elt Ideal)) (e : Fin 3300000) :
    val_main_v53 (F := Ideal) x1 (ix2 e (0 : Fin 1)) = val_main_v6 (F := Ideal) x1 (ix1 e) := by
  rw [val_main_v53_apply]
  congr 1
  funext a
  match a with
  | ⟨0, _⟩ => rfl

/-- the start-index column of operation 86 at row e is the destination word of edge e -/
theorem col86 (x1 : (⟨S2x3200000, .i32⟩ : BufTy).Contents (Elt Ideal)) (e : Fin 3300000) :
    val_main_v86 (F := Ideal) x1 (ix2 e (0 : Fin 1)) = val_main_v6 (F := Ideal) x1 (ix1 e) := by
  rw [val_main_v86_apply]
  congr 1
  funext a
  match a with
  | ⟨0, _⟩ => rfl

/-- the rows whose start word in column 10, read signed, is n are the edges into n -/
theorem inEdges10 (x1 : (⟨S2x3200000, .i32⟩ : BufTy).Contents (Elt Ideal)) (n : Fin 100000) :
    Finset.univ.filter (fun e : Fin 3300000 => (val_main_v10 (F := Ideal) x1 (ix2 e (0 : Fin 1))).toInt = (n.val : Int))
      = inEdges (val_main_v6 (F := Ideal) x1) n := by
  unfold inEdges
  exact Finset.filter_congr fun e _ => by rw [col10]

/-- the rows whose start word in column 44, read signed, is n are the edges into n -/
theorem inEdges44 (x1 : (⟨S2x3200000, .i32⟩ : BufTy).Contents (Elt Ideal)) (n : Fin 100000) :
    Finset.univ.filter (fun e : Fin 3300000 => (val_main_v44 (F := Ideal) x1 (ix2 e (0 : Fin 1))).toInt = (n.val : Int))
      = inEdges (val_main_v6 (F := Ideal) x1) n := by
  unfold inEdges
  exact Finset.filter_congr fun e _ => by rw [col44]

/-- the rows whose start word in column 53, read signed, is n are the edges into n -/
theorem inEdges53 (x1 : (⟨S2x3200000, .i32⟩ : BufTy).Contents (Elt Ideal)) (n : Fin 100000) :
    Finset.univ.filter (fun e : Fin 3300000 => (val_main_v53 (F := Ideal) x1 (ix2 e (0 : Fin 1))).toInt = (n.val : Int))
      = inEdges (val_main_v6 (F := Ideal) x1) n := by
  unfold inEdges
  exact Finset.filter_congr fun e _ => by rw [col53]

/-- the rows whose start word in column 86, read signed, is n are the edges into n -/
theorem inEdges86 (x1 : (⟨S2x3200000, .i32⟩ : BufTy).Contents (Elt Ideal)) (n : Fin 100000) :
    Finset.univ.filter (fun e : Fin 3300000 => (val_main_v86 (F := Ideal) x1 (ix2 e (0 : Fin 1))).toInt = (n.val : Int))
      = inEdges (val_main_v6 (F := Ideal) x1) n := by
  unfold inEdges
  exact Finset.filter_congr fun e _ => by rw [col86]

/-- ones accumulated onto zero along the destination words: the degree -/
theorem deg11 (x1 : (⟨S2x3200000, .i32⟩ : BufTy).Contents (Elt Ideal)) (n : Fin 100000) :
    val_main_v11 (F := Ideal) x1 (ix1 n) = deg (val_main_v6 (F := Ideal) x1) n := by
  have hop : val_main_v9 (F := Ideal) (ix1 n) = zeroW := (val_main_v9_apply _).trans ((val_main_cst_0_apply _).trans (Ideal.ofBits_def _))
  have hupd : ∀ e : Fin 3300000, val_main_v8 (F := Ideal) (ix1 e) = oneW := fun e => (val_main_v8_apply _).trans ((val_main_cst_apply _).trans (Ideal.ofBits_def _))
  unfold val_main_v11
  rw [scatterAdd_ideal, dimsFlatScatter, Cert.RowIndexOps.flatScatterAdd_apply, inEdges10, hop,
    Finset.sum_congr rfl fun e _ => hupd e]
  rfl

/-- ones accumulated onto zero along the destination words: the degree -/
theorem deg54 (x1 : (⟨S2x3200000, .i32⟩ : BufTy).Contents (Elt Ideal)) (n : Fin 100000) :
    val_main_v54 (F := Ideal) x1 (ix1 n) = deg (val_main_v6 (F := Ideal) x1) n := by
  have hop : val_main_v52 (F := Ideal) (ix1 n) = zeroW := (val_main_v52_apply _).trans ((val_main_cst_11_apply _).trans (Ideal.ofBits_def _))
  have hupd : ∀ e : Fin 3300000, val_main_v51 (F := Ideal) (ix1 e) = oneW := fun e => (val_main_v51_apply _).trans ((val_main_cst_10_apply _).trans (Ideal.ofBits_def _))
  unfold val_main_v54
  rw [scatterAdd_ideal, dimsFlatScatter, Cert.RowIndexOps.flatScatterAdd_apply, inEdges53, hop,
    Finset.sum_congr rfl fun e _ => hupd e]
  rfl

/-- the degree's inverse square root, zero where the degree is not positive -/
theorem dis17 (x1 : (⟨S2x3200000, .i32⟩ : BufTy).Contents (Elt Ideal)) (n : Fin 100000) :
    val_main_v17 (F := Ideal) x1 (ix1 n) = dis (val_main_v6 (F := Ideal) x1) n := by
  have hz : val_main_v12 (F := Ideal) (ix1 n) = zeroW := (val_main_v12_apply _).trans ((val_main_cst_1_apply _).trans (Ideal.ofBits_def _))
  have ho : val_main_v14 (F := Ideal) (ix1 n) = oneW := (val_main_v14_apply _).trans ((val_main_cst_2_apply _).trans (Ideal.ofBits_def _))
  have hw : val_main_call0_v1 (F := Ideal) (ix1 n) = zeroW :=
    (val_main_call0_v1_apply _).trans ((val_main_call0_v0_apply _).trans ((val_main_cst_3_apply _).trans (Ideal.ofBits_def _)))
  rw [val_main_v17_apply, val_main_v13_apply, val_main_v16_apply, val_main_v15_apply, deg11, hz, ho, hw,
    Ideal.hostUnary_rsqrt_def, Ideal.maximumf_def]
  unfold dis disOf
  rfl

/-- the degree's inverse square root, zero where the degree is not positive -/
theorem dis60 (x1 : (⟨S2x3200000, .i32⟩ : BufTy).Contents (Elt Ideal)) (n : Fin 100000) :
    val_main_v60 (F := Ideal) x1 (ix1 n) = dis (val_main_v6 (F := Ideal) x1) n := by
  have hz : val_main_v55 (F := Ideal) (ix1 n) = zeroW := (val_main_v55_apply _).trans ((val_main_cst_12_apply _).trans (Ideal.ofBits_def _))
  have ho : val_main_v57 (F := Ideal) (ix1 n) = oneW := (val_main_v57_apply _).trans ((val_main_cst_13_apply _).trans (Ideal.ofBits_def _))
  have hw : val_main_call2_v1 (F := Ideal) (ix1 n) = zeroW :=
    (val_main_call2_v1_apply _).trans ((val_main_call2_v0_apply _).trans ((val_main_cst_14_apply _).trans (Ideal.ofBits_def _)))
  rw [val_main_v60_apply, val_main_v56_apply, val_main_v59_apply, val_main_v58_apply, deg54, hz, ho, hw,
    Ideal.hostUnary_rsqrt_def, Ideal.maximumf_def]
  unfold dis disOf
  rfl

/-! ## The index columns -/

/-- the index column of operation 23 at row e: the source word of edge e, a negative one wrapped by the node count -/
theorem wrap23 (x1 : (⟨S2x3200000, .i32⟩ : BufTy).Contents (Elt Ideal)) (e : Fin 3300000) :
    val_main_v23 (F := Ideal) x1 (ix2 e (0 : Fin 1)) = wrapNeg (val_main_v3 (F := Ideal) x1 (ix1 e)) := by
  have hi : idx_main_v23 (ix2 e (0 : Fin 1)) = ix1 e := by
    funext a
    match a with
    | ⟨0, _⟩ => rfl
  have h0 : val_main_v18 (F := Ideal) (ix1 e) = 0#32 := (val_main_v18_apply _).trans rfl
  have hN : val_main_v20 (F := Ideal) (ix1 e) = 100000#32 := (val_main_v20_apply _).trans rfl
  rw [val_main_v23_apply, hi, val_main_v22_apply, val_main_v19_apply, val_main_v21_apply, h0, hN]
  rfl

/-- the index column of operation 30 at row e: the destination word of edge e, a negative one wrapped by the node count -/
theorem wrap30 (x1 : (⟨S2x3200000, .i32⟩ : BufTy).Contents (Elt Ideal)) (e : Fin 3300000) :
    val_main_v30 (F := Ideal) x1 (ix2 e (0 : Fin 1)) = wrapNeg (val_main_v6 (F := Ideal) x1 (ix1 e)) := by
  have hi : idx_main_v30 (ix2 e (0 : Fin 1)) = ix1 e := by
    funext a
    match a with
    | ⟨0, _⟩ => rfl
  have h0 : val_main_v25 (F := Ideal) (ix1 e) = 0#32 := (val_main_v25_apply _).trans rfl
  have hN : val_main_v27 (F := Ideal) (ix1 e) = 100000#32 := (val_main_v27_apply _).trans rfl
  rw [val_main_v30_apply, hi, val_main_v29_apply, val_main_v26_apply, val_main_v28_apply, h0, hN]
  rfl

/-- the index column of operation 38 at row e: the source word of edge e, a negative one wrapped by the node count -/
theorem wrap38 (x1 : (⟨S2x3200000, .i32⟩ : BufTy).Contents (Elt Ideal)) (e : Fin 3300000) :
    val_main_v38 (F := Ideal) x1 (ix2 e (0 : Fin 1)) = wrapNeg (val_main_v3 (F := Ideal) x1 (ix1 e)) := by
  have hi : idx_main_v38 (ix2 e (0 : Fin 1)) = ix1 e := by
    funext a
    match a with
    | ⟨0, _⟩ => rfl
  have h0 : val_main_v33 (F := Ideal) (ix1 e) = 0#32 := (val_main_v33_apply _).trans rfl
  have hN : val_main_v35 (F := Ideal) (ix1 e) = 100000#32 := (val_main_v35_apply _).trans rfl
  rw [val_main_v38_apply, hi, val_main_v37_apply, val_main_v34_apply, val_main_v36_apply, h0, hN]
  rfl

/-- the index column of operation 66 at row e: the source word of edge e, a negative one wrapped by the node count -/
theorem wrap66 (x1 : (⟨S2x3200000, .i32⟩ : BufTy).Contents (Elt Ideal)) (e : Fin 3300000) :
    val_main_v66 (F := Ideal) x1 (ix2 e (0 : Fin 1)) = wrapNeg (val_main_v3 (F := Ideal) x1 (ix1 e)) := by
  have hi : idx_main_v66 (ix2 e (0 : Fin 1)) = ix1 e := by
    funext a
    match a with
    | ⟨0, _⟩ => rfl
  have h0 : val_main_v61 (F := Ideal) (ix1 e) = 0#32 := (val_main_v61_apply _).trans rfl
  have hN : val_main_v63 (F := Ideal) (ix1 e) = 100000#32 := (val_main_v63_apply _).trans rfl
  rw [val_main_v66_apply, hi, val_main_v65_apply, val_main_v62_apply, val_main_v64_apply, h0, hN]
  rfl

/-- the index column of operation 73 at row e: the destination word of edge e, a negative one wrapped by the node count -/
theorem wrap73 (x1 : (⟨S2x3200000, .i32⟩ : BufTy).Contents (Elt Ideal)) (e : Fin 3300000) :
    val_main_v73 (F := Ideal) x1 (ix2 e (0 : Fin 1)) = wrapNeg (val_main_v6 (F := Ideal) x1 (ix1 e)) := by
  have hi : idx_main_v73 (ix2 e (0 : Fin 1)) = ix1 e := by
    funext a
    match a with
    | ⟨0, _⟩ => rfl
  have h0 : val_main_v68 (F := Ideal) (ix1 e) = 0#32 := (val_main_v68_apply _).trans rfl
  have hN : val_main_v70 (F := Ideal) (ix1 e) = 100000#32 := (val_main_v70_apply _).trans rfl
  rw [val_main_v73_apply, hi, val_main_v72_apply, val_main_v69_apply, val_main_v71_apply, h0, hN]
  rfl

/-- the index column of operation 81 at row e: the source word of edge e, a negative one wrapped by the node count -/
theorem wrap81 (x1 : (⟨S2x3200000, .i32⟩ : BufTy).Contents (Elt Ideal)) (e : Fin 3300000) :
    val_main_v81 (F := Ideal) x1 (ix2 e (0 : Fin 1)) = wrapNeg (val_main_v3 (F := Ideal) x1 (ix1 e)) := by
  have hi : idx_main_v81 (ix2 e (0 : Fin 1)) = ix1 e := by
    funext a
    match a with
    | ⟨0, _⟩ => rfl
  have h0 : val_main_v76 (F := Ideal) (ix1 e) = 0#32 := (val_main_v76_apply _).trans rfl
  have hN : val_main_v78 (F := Ideal) (ix1 e) = 100000#32 := (val_main_v78_apply _).trans rfl
  rw [val_main_v81_apply, hi, val_main_v80_apply, val_main_v77_apply, val_main_v79_apply, h0, hN]
  rfl

/-! ## The edge weights -/

/-- the factor gathered at the source row of edge e -/
theorem g24 (x1 : (⟨S2x3200000, .i32⟩ : BufTy).Contents (Elt Ideal)) (e : Fin 3300000) :
    val_main_v24 (F := Ideal) x1 (ix1 e) = dis (val_main_v6 (F := Ideal) x1) (srcRow (val_main_v3 (F := Ideal) x1) e) := by
  unfold val_main_v24
  rw [dimsFlatGather, Cert.RowIndexOps.flatGather_apply nodes_pos, clampRow_eq, wrap23, dis17]
  rfl

/-- the factor gathered at the destination row of edge e -/
theorem g31 (x1 : (⟨S2x3200000, .i32⟩ : BufTy).Contents (Elt Ideal)) (e : Fin 3300000) :
    val_main_v31 (F := Ideal) x1 (ix1 e) = dis (val_main_v6 (F := Ideal) x1) (dstRow (val_main_v6 (F := Ideal) x1) e) := by
  unfold val_main_v31
  rw [dimsFlatGather, Cert.RowIndexOps.flatGather_apply nodes_pos, clampRow_eq, wrap30, dis17]
  rfl

/-- the edge's weight: the factor at its source row times the factor at its destination row -/
theorem nrm32 (x1 : (⟨S2x3200000, .i32⟩ : BufTy).Contents (Elt Ideal)) (e : Fin 3300000) :
    val_main_v32 (F := Ideal) x1 (ix1 e) = nrm (val_main_v3 (F := Ideal) x1) (val_main_v6 (F := Ideal) x1) e := by
  rw [val_main_v32_apply, g24, g31, Ideal.mulf_def]
  unfold nrm
  rfl

/-- the factor gathered at the source row of edge e -/
theorem g67 (x1 : (⟨S2x3200000, .i32⟩ : BufTy).Contents (Elt Ideal)) (e : Fin 3300000) :
    val_main_v67 (F := Ideal) x1 (ix1 e) = dis (val_main_v6 (F := Ideal) x1) (srcRow (val_main_v3 (F := Ideal) x1) e) := by
  unfold val_main_v67
  rw [dimsFlatGather, Cert.RowIndexOps.flatGather_apply nodes_pos, clampRow_eq, wrap66, dis60]
  rfl

/-- the factor gathered at the destination row of edge e -/
theorem g74 (x1 : (⟨S2x3200000, .i32⟩ : BufTy).Contents (Elt Ideal)) (e : Fin 3300000) :
    val_main_v74 (F := Ideal) x1 (ix1 e) = dis (val_main_v6 (F := Ideal) x1) (dstRow (val_main_v6 (F := Ideal) x1) e) := by
  unfold val_main_v74
  rw [dimsFlatGather, Cert.RowIndexOps.flatGather_apply nodes_pos, clampRow_eq, wrap73, dis60]
  rfl

/-- the edge's weight: the factor at its source row times the factor at its destination row -/
theorem nrm75 (x1 : (⟨S2x3200000, .i32⟩ : BufTy).Contents (Elt Ideal)) (e : Fin 3300000) :
    val_main_v75 (F := Ideal) x1 (ix1 e) = nrm (val_main_v3 (F := Ideal) x1) (val_main_v6 (F := Ideal) x1) e := by
  rw [val_main_v75_apply, g67, g74, Ideal.mulf_def]
  unfold nrm
  rfl

/-! ## The first layer -/

/-- the gathered row: features times first weights at the source row of edge e -/
theorem g39 (x0 : (⟨S100000x5, .f32⟩ : BufTy).Contents (Elt Ideal)) (x1 : (⟨S2x3200000, .i32⟩ : BufTy).Contents (Elt Ideal)) (x2 : (⟨S5x16, .f32⟩ : BufTy).Contents (Elt Ideal)) (e : Fin 3300000) (c : Fin 16) :
    val_main_v39 (F := Ideal) x0 x1 x2 (ix2 e c) = h0 x0 x2 (srcRow (val_main_v3 (F := Ideal) x1) e) c := by
  unfold val_main_v39
  rw [dimsRowGather16, Cert.RowIndexOps.rowGather_apply nodes_pos, clampRow_eq, wrap38, val_main_v7_apply]
  unfold h0
  refine Finset.sum_congr rfl fun k _ => ?_
  have hl : lidx_main_v7 (ix2 (clampRow (wrapNeg (val_main_v3 (F := Ideal) x1 (ix1 e)))) c) k
      = ix2 (srcRow (val_main_v3 (F := Ideal) x1) e) k := by
    funext a
    match a with
    | ⟨0, _⟩ => rfl
    | ⟨1, _⟩ => rfl
  have hr : ridx_main_v7 (ix2 (clampRow (wrapNeg (val_main_v3 (F := Ideal) x1 (ix1 e)))) c) k = ix2 k c := by
    funext a
    match a with
    | ⟨0, _⟩ => rfl
    | ⟨1, _⟩ => rfl
  rw [hl, hr]

/-- the edge's weight broadcast along the 16 columns -/
theorem b41 (x1 : (⟨S2x3200000, .i32⟩ : BufTy).Contents (Elt Ideal)) (e : Fin 3300000) (c : Fin 16) :
    val_main_v41 (F := Ideal) x1 (ix2 e c) = nrm (val_main_v3 (F := Ideal) x1) (val_main_v6 (F := Ideal) x1) e := by
  have hi : idx_main_v40 (idx_main_v41 (ix2 e c)) = ix1 e := by
    funext a
    match a with
    | ⟨0, _⟩ => rfl
  rw [val_main_v41_apply, val_main_v40_apply, hi, nrm32]

/-- the weighted message of edge e, column c -/
theorem m42 (x0 : (⟨S100000x5, .f32⟩ : BufTy).Contents (Elt Ideal)) (x1 : (⟨S2x3200000, .i32⟩ : BufTy).Contents (Elt Ideal)) (x2 : (⟨S5x16, .f32⟩ : BufTy).Contents (Elt Ideal)) (e : Fin 3300000) (c : Fin 16) :
    val_main_v42 (F := Ideal) x0 x1 x2 (ix2 e c)
      = h0 x0 x2 (srcRow (val_main_v3 (F := Ideal) x1) e) c * nrm (val_main_v3 (F := Ideal) x1) (val_main_v6 (F := Ideal) x1) e := by
  rw [val_main_v42_apply, g39, b41, Ideal.mulf_def]

/-- the weighted messages accumulated along the destination words -/
theorem s45 (x0 : (⟨S100000x5, .f32⟩ : BufTy).Contents (Elt Ideal)) (x1 : (⟨S2x3200000, .i32⟩ : BufTy).Contents (Elt Ideal)) (x2 : (⟨S5x16, .f32⟩ : BufTy).Contents (Elt Ideal)) (n : Fin 100000) (c : Fin 16) :
    val_main_v45 (F := Ideal) x0 x1 x2 (ix2 n c)
      = zeroW + ∑ e ∈ inEdges (val_main_v6 (F := Ideal) x1) n, h0 x0 x2 (srcRow (val_main_v3 (F := Ideal) x1) e) c * nrm (val_main_v3 (F := Ideal) x1) (val_main_v6 (F := Ideal) x1) e := by
  have hop : val_main_v43 (F := Ideal) (ix2 n c) = zeroW := (val_main_v43_apply _).trans ((val_main_cst_9_apply _).trans (Ideal.ofBits_def _))
  unfold val_main_v45
  rw [scatterAdd_ideal, dimsRowScatter16, Cert.RowIndexOps.rowScatterAdd_apply, inEdges44, hop,
    Finset.sum_congr rfl fun e _ => m42 x0 x1 x2 e c]

/-- the first layer before the rectifier: the accumulated messages plus the bias -/
theorem o48 (x0 : (⟨S100000x5, .f32⟩ : BufTy).Contents (Elt Ideal)) (x1 : (⟨S2x3200000, .i32⟩ : BufTy).Contents (Elt Ideal)) (x2 : (⟨S5x16, .f32⟩ : BufTy).Contents (Elt Ideal)) (x3 : (⟨S16, .f32⟩ : BufTy).Contents (Elt Ideal)) (n : Fin 100000) (c : Fin 16) :
    val_main_v48 (F := Ideal) x0 x1 x2 x3 (ix2 n c) = o1 (val_main_v3 (F := Ideal) x1) (val_main_v6 (F := Ideal) x1) x0 x2 x3 n c := by
  have hi : idx_main_v46 (idx_main_v47 (ix2 n c)) = ix1 c := by
    funext a
    match a with
    | ⟨0, _⟩ => rfl
  rw [val_main_v48_apply, s45, val_main_v47_apply, val_main_v46_apply, hi, Ideal.addf_def]
  rfl

/-- the hidden layer -/
theorem h49 (x0 : (⟨S100000x5, .f32⟩ : BufTy).Contents (Elt Ideal)) (x1 : (⟨S2x3200000, .i32⟩ : BufTy).Contents (Elt Ideal)) (x2 : (⟨S5x16, .f32⟩ : BufTy).Contents (Elt Ideal)) (x3 : (⟨S16, .f32⟩ : BufTy).Contents (Elt Ideal)) (n : Fin 100000) (c : Fin 16) :
    val_main_v49 (F := Ideal) x0 x1 x2 x3 (ix2 n c) = hR (val_main_v3 (F := Ideal) x1) (val_main_v6 (F := Ideal) x1) x0 x2 x3 n c := by
  have hz : val_main_call1_v0 (F := Ideal) (ix2 n c) = zeroW :=
    (val_main_call1_v0_apply _).trans ((val_main_call1_cst_apply _).trans (Ideal.ofBits_def _))
  rw [val_main_v49_apply, o48, hz, Ideal.maximumf_def]
  rfl

/-! ## The second layer -/

/-- the hidden layer times the second weights -/
theorem p50 (x0 : (⟨S100000x5, .f32⟩ : BufTy).Contents (Elt Ideal)) (x1 : (⟨S2x3200000, .i32⟩ : BufTy).Contents (Elt Ideal)) (x2 : (⟨S5x16, .f32⟩ : BufTy).Contents (Elt Ideal)) (x3 : (⟨S16, .f32⟩ : BufTy).Contents (Elt Ideal)) (x4 : (⟨S16x1, .f32⟩ : BufTy).Contents (Elt Ideal)) (n : Fin 100000) :
    val_main_v50 (F := Ideal) x0 x1 x2 x3 x4 (ix2 n (0 : Fin 1)) = pR (val_main_v3 (F := Ideal) x1) (val_main_v6 (F := Ideal) x1) x0 x2 x3 x4 n := by
  rw [val_main_v50_apply]
  unfold pR
  refine Finset.sum_congr rfl fun k _ => ?_
  have hl : lidx_main_v50 (ix2 n (0 : Fin 1)) k = ix2 n k := by
    funext a
    match a with
    | ⟨0, _⟩ => rfl
    | ⟨1, _⟩ => rfl
  have hr : ridx_main_v50 (ix2 n (0 : Fin 1)) k = ix2 k (0 : Fin 1) := by
    funext a
    match a with
    | ⟨0, _⟩ => rfl
    | ⟨1, _⟩ => rfl
  rw [hl, hr, h49]

/-- the gathered second-layer value at the source row of edge e -/
theorem g82 (x0 : (⟨S100000x5, .f32⟩ : BufTy).Contents (Elt Ideal)) (x1 : (⟨S2x3200000, .i32⟩ : BufTy).Contents (Elt Ideal)) (x2 : (⟨S5x16, .f32⟩ : BufTy).Contents (Elt Ideal)) (x3 : (⟨S16, .f32⟩ : BufTy).Contents (Elt Ideal)) (x4 : (⟨S16x1, .f32⟩ : BufTy).Contents (Elt Ideal)) (e : Fin 3300000) :
    val_main_v82 (F := Ideal) x0 x1 x2 x3 x4 (ix2 e (0 : Fin 1))
      = pR (val_main_v3 (F := Ideal) x1) (val_main_v6 (F := Ideal) x1) x0 x2 x3 x4 (srcRow (val_main_v3 (F := Ideal) x1) e) := by
  unfold val_main_v82
  rw [dimsRowGather1, Cert.RowIndexOps.rowGather_apply nodes_pos, clampRow_eq, wrap81, p50]
  rfl

/-- the edge's weight as a column -/
theorem b83 (x1 : (⟨S2x3200000, .i32⟩ : BufTy).Contents (Elt Ideal)) (e : Fin 3300000) :
    val_main_v83 (F := Ideal) x1 (ix2 e (0 : Fin 1)) = nrm (val_main_v3 (F := Ideal) x1) (val_main_v6 (F := Ideal) x1) e := by
  have hi : idx_main_v83 (ix2 e (0 : Fin 1)) = ix1 e := by
    funext a
    match a with
    | ⟨0, _⟩ => rfl
  rw [val_main_v83_apply, hi, nrm75]

/-- the weighted second-layer message of edge e -/
theorem m84 (x0 : (⟨S100000x5, .f32⟩ : BufTy).Contents (Elt Ideal)) (x1 : (⟨S2x3200000, .i32⟩ : BufTy).Contents (Elt Ideal)) (x2 : (⟨S5x16, .f32⟩ : BufTy).Contents (Elt Ideal)) (x3 : (⟨S16, .f32⟩ : BufTy).Contents (Elt Ideal)) (x4 : (⟨S16x1, .f32⟩ : BufTy).Contents (Elt Ideal)) (e : Fin 3300000) :
    val_main_v84 (F := Ideal) x0 x1 x2 x3 x4 (ix2 e (0 : Fin 1))
      = pR (val_main_v3 (F := Ideal) x1) (val_main_v6 (F := Ideal) x1) x0 x2 x3 x4 (srcRow (val_main_v3 (F := Ideal) x1) e) * nrm (val_main_v3 (F := Ideal) x1) (val_main_v6 (F := Ideal) x1) e := by
  rw [val_main_v84_apply, g82, b83, Ideal.mulf_def]

/-- the second-layer messages accumulated along the destination words -/
theorem s87 (x0 : (⟨S100000x5, .f32⟩ : BufTy).Contents (Elt Ideal)) (x1 : (⟨S2x3200000, .i32⟩ : BufTy).Contents (Elt Ideal)) (x2 : (⟨S5x16, .f32⟩ : BufTy).Contents (Elt Ideal)) (x3 : (⟨S16, .f32⟩ : BufTy).Contents (Elt Ideal)) (x4 : (⟨S16x1, .f32⟩ : BufTy).Contents (Elt Ideal)) (n : Fin 100000) :
    val_main_v87 (F := Ideal) x0 x1 x2 x3 x4 (ix2 n (0 : Fin 1))
      = zeroW + ∑ e ∈ inEdges (val_main_v6 (F := Ideal) x1) n,
          pR (val_main_v3 (F := Ideal) x1) (val_main_v6 (F := Ideal) x1) x0 x2 x3 x4 (srcRow (val_main_v3 (F := Ideal) x1) e) * nrm (val_main_v3 (F := Ideal) x1) (val_main_v6 (F := Ideal) x1) e := by
  have hop : val_main_v85 (F := Ideal) (ix2 n (0 : Fin 1)) = zeroW := (val_main_v85_apply _).trans ((val_main_cst_21_apply _).trans (Ideal.ofBits_def _))
  unfold val_main_v87
  rw [scatterAdd_ideal, dimsRowScatter1, Cert.RowIndexOps.rowScatterAdd_apply, inEdges86, hop,
    Finset.sum_congr rfl fun e _ => m84 x0 x1 x2 x3 x4 e]

/-- THE REFERENCE'S RESULT at node n is the specification's reference arrangement -/
theorem ref_eq_outR (x0 : (⟨S100000x5, .f32⟩ : BufTy).Contents (Elt Ideal)) (x1 : (⟨S2x3200000, .i32⟩ : BufTy).Contents (Elt Ideal))
    (x2 : (⟨S5x16, .f32⟩ : BufTy).Contents (Elt Ideal)) (x3 : (⟨S16, .f32⟩ : BufTy).Contents (Elt Ideal))
    (x4 : (⟨S16x1, .f32⟩ : BufTy).Contents (Elt Ideal)) (x5 : (⟨S1, .f32⟩ : BufTy).Contents (Elt Ideal)) (n : Fin 100000) :
    val_main_v90 (F := Ideal) x0 x1 x2 x3 x4 x5 (ix2 n 0)
      = outR (val_main_v3 (F := Ideal) x1) (val_main_v6 (F := Ideal) x1) x0 x2 x3 x4 x5 n := by
  have hi : idx_main_v88 (idx_main_v89 (ix2 n (0 : Fin 1))) = ix1 (0 : Fin 1) := by
    funext a
    match a with
    | ⟨0, _⟩ => rfl
  rw [val_main_v90_apply, s87, val_main_v89_apply, val_main_v88_apply, hi, Ideal.addf_def]
  rfl

end Cert.ReferenceIdeal.RefValue

end
-- ==== Proof.EdgeWords.lean ====
/-
  Both programs build the same two edge word arrays from the edge index argument: row 0 (sources) or row 1 (destinations)
  of the given 3200000 edges, followed by one self-loop per node (the node numbers 0 … 99999). The kernel program's first
  host stretch and the reference's first operations are the same operations, so the arrays are equal as functions of the
  argument.
-/
import proofs.«136974_j31576599560907_2_alg».proof.Proof.KHost
import proofs.«136974_j31576599560907_2_alg».proof.Proof.RefRead

set_option maxRecDepth 16384

noncomputable section

namespace Cert.Proof.EdgeWords

open Cert.KernelIdeal Cert.KernelIdeal.Gen Cert.KernelIdeal.HostValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

attribute [local congr] Cert.LibConcatenateSimp.concatenate2_congr

/-- The kernel program's source words are the reference's, of the same edge index argument. -/
theorem src_eq : srcW m ρ c = Cert.ReferenceIdeal.ReadP.val_main_v3 (F := Ideal) (m ((c : Thread nD τ).loc main_arg1)) := by
  show StableHlo.after hostOps0 (W0 m ρ c) (Proc.devRef .tc main_v3) = _
  after_results_simp
  all_goals rfl

/-- The kernel program's destination words are the reference's. -/
theorem dst_eq : dstW m ρ c = Cert.ReferenceIdeal.ReadP.val_main_v6 (F := Ideal) (m ((c : Thread nD τ).loc main_arg1)) := by
  show StableHlo.after hostOps0 (W0 m ρ c) (Proc.devRef .tc main_v6) = _
  after_results_simp
  all_goals rfl

end Cert.Proof.EdgeWords

end
-- ==== Proof.LibRealEntries.lean ====
/-
  Real entries on the extended reals: what a proof needs when the law joining two programs holds on the reals but fails at
  the infinities (distributivity, cancelling, moving a factor across a sum).

  * `AllReal f`: every value of f is a real number.
  * `coe_sum`: the coercion of a finite sum of reals is the sum of the coercions.
  * `sum_mul_real`: a finite sum of products of real entries is a real.
  * `add_mul_real`: (a + b) * c = a * c + b * c for real a, b, c.
  * `allReal_of_reduce`, generic in the array's shape: if the "and" over all axes of the comparisons |v i| < +infinity is 1,
    every entry of v is a real — one array's part of the precondition "every float input is finite". An extended real whose
    absolute value max z (-z) is strictly below the top is neither infinity (both have absolute value top), hence a real.
-/
import Idealize.ShloMosaic.PureOps.Ideal
import Idealize.ShloMosaic.PureOps.Ideal.Laws
import Idealize.ShloMosaic.Lib.ValueIdx
import Idealize.ShloMosaic.Lib.ReduceAll

noncomputable section

namespace Cert.RealEntries

open Idealize.ShloMosaic
open scoped BigOperators

/-! ## Real entries and their arithmetic -/

/-- Every value of `f` is a real number (neither infinity). -/
def AllReal {ι : Type} (f : ι → EReal) : Prop := ∀ i, ∃ r : ℝ, f i = (r : EReal)

/-- The coercion of a finite sum of reals is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of products of real entries is a real. -/
theorem sum_mul_real {ι : Type} (s : Finset ι) (f g : ι → EReal) (hf : AllReal f) (hg : AllReal g) :
    ∃ r : ℝ, ∑ k ∈ s, f k * g k = (r : EReal) := by
  choose f' hf' using hf
  choose g' hg' using hg
  refine ⟨∑ k ∈ s, f' k * g' k, ?_⟩
  rw [coe_sum]
  exact Finset.sum_congr rfl fun k _ => by rw [hf', hg', EReal.coe_mul]

/-- The distributive law on real entries: it is the reals' own. (On the extended reals it fails at the infinities: for a
    negative real x, (top + bot) * x = top while top * x + bot * x = bot.) -/
theorem add_mul_real {a b c : EReal} (ha : ∃ r : ℝ, a = (r : EReal)) (hb : ∃ r : ℝ, b = (r : EReal))
    (hc : ∃ r : ℝ, c = (r : EReal)) : (a + b) * c = a * c + b * c := by
  obtain ⟨a, rfl⟩ := ha
  obtain ⟨b, rfl⟩ := hb
  obtain ⟨c, rfl⟩ := hc
  rw [← EReal.coe_add, ← EReal.coe_mul, ← EReal.coe_mul, ← EReal.coe_mul, ← EReal.coe_add, add_mul]

/-! ## From "every entry is finite" to "every entry is a real" -/

/-- The single-precision pattern `0x7F800000` denotes +infinity. -/
theorem ofBits_inf : Ideal.ofBits .f32 0x7F800000#32 = (⊤ : EReal) := by
  simp [Ideal.ofBits, Ideal.ieee]

/-- An extended real whose absolute value `max z (-z)` compares strictly below +infinity is a real:
    both infinities have absolute value `⊤`. -/
theorem real_of_abs_lt_inf (z : EReal)
    (h : Ideal.cmp .olt (max z (-z)) (Ideal.ofBits .f32 0x7F800000#32) = 1#1) : ∃ r : ℝ, z = (r : EReal) := by
  rw [ofBits_inf] at h
  induction z using EReal.rec with
  | bot => simp [Ideal.cmp] at h
  | coe r => exact ⟨r, rfl⟩
  | top => simp [Ideal.cmp] at h

/-- The scalar shape has exactly one index. -/
instance scalarIdx_subsingleton : Subsingleton (⟨0, ![]⟩ : Shape).Idx :=
  ⟨fun a b => funext fun d => d.elim0⟩

/-- One array's part of the predicate, for any shape: if the "and" over all axes of the comparisons
    `|v i| < +inf` is 1, every entry of `v` is a real. -/
theorem allReal_of_reduce {S T U C : Shape} [Subsingleton T.Idx] {axes : List (Fin S.rank)}
    (hr : S.ReducesTo axes T) (hu : 0 < U.numel) (dims : Fin C.rank → Fin S.rank) (hb : C.BroadcastsInDim S dims)
    (v : FVec Ideal S .f32) (init : IVec U 1) (j : T.Idx)
    (e : Host.reduce IntOp.andi
          (cmpf .olt (Host.absf v) (broadcastInDim S dims hb (constant C .f32 0x7F800000#32))) init hr hu j = 1#1) :
    ∀ i, ∃ r : ℝ, v i = (r : EReal) := by
  intro i
  have h1 : Ideal.cmp .olt (max (v i) (-(v i))) (Ideal.ofBits .f32 0x7F800000#32) = 1#1 :=
    Host.reduce_andi_all _ init hr hu j e i
  exact real_of_abs_lt_inf (v i) h1

end Cert.RealEntries

end
-- ==== Proof.Algebra.lean ====
/-
  The algebra that joins the two arrangements of the two-layer normalised graph aggregation on real entries.

  * A destination word whose signed value is the node n names row n when it is wrapped and clamped, so inside a sum over
    the edges into n an edge's weight is (factor of its source row) * (factor of n).
  * A degree is a real (a finite sum of ones onto zero), the larger of it and one is a positive real, whose reciprocal
    square root is a real; a select between two reals is a real: every normalisation factor is a real.
  * With every entry a real, each quantity of the specification is the coercion of the same expression over the reals,
    and over the reals the two arrangements agree by distributivity and an exchange of the two finite sums:
      sum_e (sum_k x(s e,k) W1(k,c)) (D(s e) D n)  =  sum_k ((sum_e x(s e,k) D(s e)) D n) W1(k,c),
      sum_e p(s e) (D(s e) D n)                    =  (sum_e p(s e) D(s e)) D n.
-/
import proofs.«136974_j31576599560907_2_alg».proof.Proof.Spec
import proofs.«136974_j31576599560907_2_alg».proof.Proof.LibRealEntries
import Idealize.ShloMosaic.Lib.IdealHost

noncomputable section

namespace Cert.GcnAlgebra
open Cert.GcnSpec Cert.RealEntries Idealize.ShloMosaic Idealize.ShloMosaic.ValueIdx
open scoped BigOperators

/-! ## Words -/

/-- A start word whose signed value is the node n names row n when it is wrapped and clamped. -/
theorem clampRow_wrapNeg_of_toInt (v : BitVec 32) (n : Fin 100000) (h : v.toInt = (n.val : Int)) :
    clampRow (wrapNeg v) = n := by
  have hslt : v.slt 0#32 = false := by
    simp [BitVec.slt, h]
  have hw : wrapNeg v = v := by
    unfold wrapNeg IntOp.cmpi
    simp only [hslt]
    exact select_zero _ _
  rw [hw]
  apply Fin.ext
  simp only [clampRow, h]
  have := n.isLt
  omega

/-! ## The constants, the maximum and the reciprocal square root on reals -/

private theorem zeroW_eq : zeroW = ((0 : ℝ) : EReal) := by
  rw [EReal.coe_zero]; exact Ideal.ofBits_zero_f32

private theorem oneW_eq : oneW = ((1 : ℝ) : EReal) := by
  rw [EReal.coe_one]; exact Ideal.ofBits_one_f32

/-- The coercion is monotone, so it commutes with the maximum. -/
private theorem coe_max (a b : ℝ) : ((max a b : ℝ) : EReal) = max (a : EReal) (b : EReal) :=
  EReal.coe_strictMono.monotone.map_max

/-- The reciprocal square root of a positive real is the real 1 / sqrt r. -/
private theorem rsqrt_pos (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- The factor computed from a real degree is a real. -/
private theorem disOf_real (r : ℝ) : ∃ r' : ℝ, disOf (r : EReal) = (r' : EReal) := by
  unfold disOf Scalar.select
  split_ifs
  · refine ⟨(Real.sqrt (max r 1))⁻¹, ?_⟩
    rw [oneW_eq, ← coe_max, rsqrt_pos _ (lt_of_lt_of_le one_pos (le_max_right _ _))]
  · exact ⟨0, zeroW_eq⟩

/-- A degree is a real: a finite sum of ones onto zero. -/
private theorem deg_real (dst : (⟨1, ![3300000]⟩ : Shape).Idx → BitVec 32) (n : Fin 100000) :
    ∃ r : ℝ, deg dst n = (r : EReal) := by
  refine ⟨0 + ∑ _e ∈ inEdges dst n, (1 : ℝ), ?_⟩
  unfold deg
  rw [zeroW_eq, oneW_eq, EReal.coe_add, coe_sum]

/-- The normalisation factor of every node is a real number. -/
theorem dis_real (dst : (⟨1, ![3300000]⟩ : Shape).Idx → BitVec 32) (n : Fin 100000) : ∃ r : ℝ, dis dst n = (r : EReal) := by
  obtain ⟨r, hr⟩ := deg_real dst n
  unfold dis
  rw [hr]
  exact disOf_real r

/-- Inside a sum over the edges into n, an edge's weight is the factor of its source row times the factor of n. -/
private theorem nrm_of_mem (src dst : (⟨1, ![3300000]⟩ : Shape).Idx → BitVec 32) (n : Fin 100000) (e : Fin 3300000)
    (he : e ∈ inEdges dst n) : nrm src dst e = dis dst (srcRow src e) * dis dst n := by
  have he' : e ∈ Finset.univ.filter (fun e : Fin 3300000 => (dst (ix1 e)).toInt = (n.val : Int)) := he
  unfold nrm dstRow
  rw [clampRow_wrapNeg_of_toInt _ n (Finset.mem_filter.mp he').2]

/-! ## The two arrangements over the reals -/

section RealTwin

variable (In : Fin 100000 → Finset (Fin 3300000)) (s : Fin 3300000 → Fin 100000) (D : Fin 100000 → ℝ)
  (x : (⟨2, ![100000, 5]⟩ : Shape).Idx → ℝ) (W1 : (⟨2, ![5, 16]⟩ : Shape).Idx → ℝ)
  (b1 : (⟨1, ![16]⟩ : Shape).Idx → ℝ) (W2 : (⟨2, ![16, 1]⟩ : Shape).Idx → ℝ) (b2 : (⟨1, ![1]⟩ : Shape).Idx → ℝ)

/-- The first layer before the rectifier: scale, sum over the edges, scale, then the weights. -/
private def preK (n : Fin 100000) (c : Fin 16) : ℝ :=
  (∑ k : Fin 5, ((0 + ∑ e ∈ In n, x (ix2 (s e) k) * D (s e)) * D n) * W1 (ix2 k c)) + b1 (ix1 c)

/-- The first layer before the rectifier: the weights first, then the weighted sum over the edges. -/
private def preR (n : Fin 100000) (c : Fin 16) : ℝ :=
  (0 + ∑ e ∈ In n, (∑ k : Fin 5, x (ix2 (s e) k) * W1 (ix2 k c)) * (D (s e) * D n)) + b1 (ix1 c)

private theorem preK_eq_preR (n : Fin 100000) (c : Fin 16) :
    preK In s D x W1 b1 n c = preR In s D x W1 b1 n c := by
  unfold preK preR
  congr 1
  simp only [zero_add, Finset.sum_mul]
  rw [Finset.sum_comm]
  refine Finset.sum_congr rfl fun e _ => ?_
  refine Finset.sum_congr rfl fun k _ => ?_
  ring

/-- The hidden layer. -/
private def hT (n : Fin 100000) (c : Fin 16) : ℝ := max (preR In s D x W1 b1 n c) 0

/-- The hidden layer times the second weights. -/
private def pT (n : Fin 100000) : ℝ := ∑ c : Fin 16, hT In s D x W1 b1 n c * W2 (ix2 c 0)

/-- The result: scale, sum over the edges, scale. -/
private def outKT (n : Fin 100000) : ℝ :=
  (0 + ∑ e ∈ In n, (pT In s D x W1 b1 W2 (s e) * D (s e))) * D n + b2 (ix1 0)

/-- The result: the weighted sum over the edges. -/
private def outRT (n : Fin 100000) : ℝ :=
  (0 + ∑ e ∈ In n, pT In s D x W1 b1 W2 (s e) * (D (s e) * D n)) + b2 (ix1 0)

private theorem outKT_eq_outRT (n : Fin 100000) :
    outKT In s D x W1 b1 W2 b2 n = outRT In s D x W1 b1 W2 b2 n := by
  unfold outKT outRT
  congr 1
  rw [zero_add, zero_add, Finset.sum_mul]
  exact Finset.sum_congr rfl fun e _ => by ring

end RealTwin

/-! ## The specification's quantities are the coercions of the real ones -/

section Coe

variable (src dst : (⟨1, ![3300000]⟩ : Shape).Idx → BitVec 32)
  (x : (⟨2, ![100000, 5]⟩ : Shape).Idx → EReal) (W1 : (⟨2, ![5, 16]⟩ : Shape).Idx → EReal)
  (b1 : (⟨1, ![16]⟩ : Shape).Idx → EReal) (W2 : (⟨2, ![16, 1]⟩ : Shape).Idx → EReal) (b2 : (⟨1, ![1]⟩ : Shape).Idx → EReal)
  (x' : (⟨2, ![100000, 5]⟩ : Shape).Idx → ℝ) (W1' : (⟨2, ![5, 16]⟩ : Shape).Idx → ℝ)
  (b1' : (⟨1, ![16]⟩ : Shape).Idx → ℝ) (W2' : (⟨2, ![16, 1]⟩ : Shape).Idx → ℝ) (b2' : (⟨1, ![1]⟩ : Shape).Idx → ℝ)
  (D : Fin 100000 → ℝ)
  (hx : ∀ i, x i = (x' i : EReal)) (hW1 : ∀ i, W1 i = (W1' i : EReal)) (hb1 : ∀ i, b1 i = (b1' i : EReal))
  (hW2 : ∀ i, W2 i = (W2' i : EReal)) (hb2 : ∀ i, b2 i = (b2' i : EReal)) (hD : ∀ n, dis dst n = (D n : EReal))

include hx hW1 hb1 hD in
/-- The kernel's hidden layer is the coercion of the real hidden layer. -/
private theorem hK_coe (n : Fin 100000) (c : Fin 16) :
    hK src dst x W1 b1 n c = ((hT (inEdges dst) (srcRow src) D x' W1' b1' n c : ℝ) : EReal) := by
  have e1 : hT (inEdges dst) (srcRow src) D x' W1' b1' n c
      = max (preK (inEdges dst) (srcRow src) D x' W1' b1' n c) 0 := by
    unfold hT; rw [preK_eq_preR]
  rw [e1]
  unfold hK agg1 xs preK
  simp only [hx, hW1, hb1, hD, zeroW_eq, coe_max, EReal.coe_add, EReal.coe_mul, coe_sum]

include hx hW1 hb1 hD in
/-- The reference's hidden layer is the coercion of the real hidden layer. -/
private theorem hR_coe (n : Fin 100000) (c : Fin 16) :
    hR src dst x W1 b1 n c = ((hT (inEdges dst) (srcRow src) D x' W1' b1' n c : ℝ) : EReal) := by
  unfold hR o1 hT preR
  rw [Finset.sum_congr rfl fun e he => by rw [nrm_of_mem src dst n e he]]
  unfold h0
  simp only [hx, hW1, hb1, hD, zeroW_eq, coe_max, EReal.coe_add, EReal.coe_mul, coe_sum]

include hx hW1 hb1 hW2 hD in
/-- The kernel's scaled hidden product is the coercion of the real one times the factor. -/
private theorem pK_coe (n : Fin 100000) :
    pK src dst x W1 b1 W2 n = ((pT (inEdges dst) (srcRow src) D x' W1' b1' W2' n * D n : ℝ) : EReal) := by
  unfold pK pT
  simp only [hK_coe src dst x W1 b1 x' W1' b1' D hx hW1 hb1 hD, hW2, hD, EReal.coe_mul, coe_sum]

include hx hW1 hb1 hW2 hD in
/-- The reference's hidden product is the coercion of the real one. -/
private theorem pR_coe (n : Fin 100000) :
    pR src dst x W1 b1 W2 n = ((pT (inEdges dst) (srcRow src) D x' W1' b1' W2' n : ℝ) : EReal) := by
  unfold pR pT
  simp only [hR_coe src dst x W1 b1 x' W1' b1' D hx hW1 hb1 hD, hW2, EReal.coe_mul, coe_sum]

include hx hW1 hb1 hW2 hb2 hD in
/-- The kernel's result is the coercion of the real one. -/
private theorem outK_coe (n : Fin 100000) :
    outK src dst x W1 b1 W2 b2 n = ((outKT (inEdges dst) (srcRow src) D x' W1' b1' W2' b2' n : ℝ) : EReal) := by
  unfold outK agg2 outKT
  simp only [pK_coe src dst x W1 b1 W2 x' W1' b1' W2' D hx hW1 hb1 hW2 hD, hb2, hD, zeroW_eq,
    EReal.coe_add, EReal.coe_mul, coe_sum]

include hx hW1 hb1 hW2 hb2 hD in
/-- The reference's result is the coercion of the real one. -/
private theorem outR_coe (n : Fin 100000) :
    outR src dst x W1 b1 W2 b2 n = ((outRT (inEdges dst) (srcRow src) D x' W1' b1' W2' b2' n : ℝ) : EReal) := by
  unfold outR outRT
  rw [Finset.sum_congr rfl fun e he => by rw [nrm_of_mem src dst n e he]]
  simp only [pR_coe src dst x W1 b1 W2 x' W1' b1' W2' D hx hW1 hb1 hW2 hD, hb2, hD, zeroW_eq,
    EReal.coe_add, EReal.coe_mul, coe_sum]

end Coe

/-! ## The two arrangements agree -/

/-- On real entries the kernel's arrangement and the reference's are the same number at every node. -/
theorem outK_eq_outR (src dst : (⟨1, ![3300000]⟩ : Shape).Idx → BitVec 32)
    (x : (⟨2, ![100000, 5]⟩ : Shape).Idx → EReal) (W1 : (⟨2, ![5, 16]⟩ : Shape).Idx → EReal)
    (b1 : (⟨1, ![16]⟩ : Shape).Idx → EReal) (W2 : (⟨2, ![16, 1]⟩ : Shape).Idx → EReal) (b2 : (⟨1, ![1]⟩ : Shape).Idx → EReal)
    (hx : AllReal x) (hW1 : AllReal W1) (hb1 : AllReal b1) (hW2 : AllReal W2) (hb2 : AllReal b2) (n : Fin 100000) :
    outK src dst x W1 b1 W2 b2 n = outR src dst x W1 b1 W2 b2 n := by
  choose x' hx' using hx
  choose W1' hW1' using hW1
  choose b1' hb1' using hb1
  choose W2' hW2' using hW2
  choose b2' hb2' using hb2
  choose D hD using dis_real dst
  rw [outK_coe src dst x W1 b1 W2 b2 x' W1' b1' W2' b2' D hx' hW1' hb1' hW2' hb2' hD,
    outR_coe src dst x W1 b1 W2 b2 x' W1' b1' W2' b2' D hx' hW1' hb1' hW2' hb2' hD, outKT_eq_outRT]

end Cert.GcnAlgebra

end
-- ==== Proof.Finite.lean ====
/-
  From the precondition "every float input is finite" to "every entry of every float argument is a real number".

  The precondition is the conjunction, over the five float arrays, of the "and" over all entries of the comparisons
  |v i| < +infinity. The conjunction is 1 exactly when each conjunct is, and one array's conjunct being 1 makes each of its
  entries a real (an extended real whose absolute value is below the top is neither infinity).
-/
import proofs.«136974_j31576599560907_2_alg».proof.Pre_finite_inputs
import proofs.«136974_j31576599560907_2_alg».proof.Proof.LibRealEntries
import Idealize.ShloMosaic.Lib.Affine

noncomputable section

namespace Cert.Proof.Finite

open Cert.Pre_finite_inputs Cert.RealEntries Idealize.ShloMosaic

variable [Cert.Pre_finite_inputs.Facts]

/-- Under the precondition every entry of the features, of both weight matrices and of both biases is a real. -/
theorem allReal_of_pre (x0 : FVec Ideal S100000x5 .f32) (x1 : IVec S2x3200000 32) (x2 : FVec Ideal S5x16 .f32)
    (x3 : FVec Ideal S16 .f32) (x4 : FVec Ideal S16x1 .f32) (x5 : FVec Ideal S1 .f32)
    (h : fn (F := Ideal) x0 x1 x2 x3 x4 x5 = fun _ => 1#1) :
    AllReal x0 ∧ AllReal x2 ∧ AllReal x3 ∧ AllReal x4 ∧ AllReal x5 := by
  have h0 := congrFun h ValueIdx.ix0
  dsimp only [fn, fn_part1] at h0
  obtain ⟨h1, e5⟩ := IntOp.andi_eq_one.mp h0
  obtain ⟨h2, e4⟩ := IntOp.andi_eq_one.mp h1
  obtain ⟨h3, e3⟩ := IntOp.andi_eq_one.mp h2
  obtain ⟨e0, e2⟩ := IntOp.andi_eq_one.mp h3
  exact ⟨allReal_of_reduce _ _ _ _ x0 _ _ e0, allReal_of_reduce _ _ _ _ x2 _ _ e2, allReal_of_reduce _ _ _ _ x3 _ _ e3,
    allReal_of_reduce _ _ _ _ x4 _ _ e4, allReal_of_reduce _ _ _ _ x5 _ _ e5⟩

end Cert.Proof.Finite

end
-- ==== Proof.lean ====
/- Two-layer graph convolution: the kernel's program against its reference, equal on the extended reals under finite inputs.

   The reference computes, twice, `D^(-1/2) (A + I) D^(-1/2) (X W) + b` with a rectifier in between: it multiplies by the weights,
   then sums every edge's message scaled by the product of the two endpoint factors. The kernel's program scales the rows by
   the source factor in a first region, sums over the edges on the host, and in a second region scales by the destination
   factor, multiplies by the first weights, adds the bias, rectifies, multiplies by the second weights and scales again; a
   second host sum and a third region (scale, add the bias) finish. The two arrangements agree on real entries by the
   distributive law (Proof/Algebra.lean over Proof/Spec.lean), and the precondition makes every float entry real
   (Proof/Finite.lean). The kernel program's value is read off its run region by region (Proof/KRun.lean, Proof/KHost.lean,
   Proof/KAgg.lean, Proof/KAgg2.lean, Proof/KRegion02.lean, Proof/KRegion1.lean, Proof/KValue.lean), the reference's off its
   run one operation at a time (Proof/RefRun.lean, Proof/RefRead.lean, Proof/RefValue.lean), and both programs build the
   same edge word arrays (Proof/EdgeWords.lean). The idealization rewrote nothing, so `preserves` is trivial. -/
import proofs.«136974_j31576599560907_2_alg».proof.Defs
import proofs.«136974_j31576599560907_2_alg».proof.Proof.Gen.Kernel
import proofs.«136974_j31576599560907_2_alg».proof.Proof.Gen.Kernel.Skeleton
import proofs.«136974_j31576599560907_2_alg».proof.Proof.Gen.Kernel.Launch
import proofs.«136974_j31576599560907_2_alg».proof.Proof.Gen.Kernel.Points
import proofs.«136974_j31576599560907_2_alg».proof.Proof.Gen.Kernel.Frame
import proofs.«136974_j31576599560907_2_alg».proof.Proof.Gen.KernelIdeal
import proofs.«136974_j31576599560907_2_alg».proof.Proof.Gen.KernelIdeal.Skeleton
import proofs.«136974_j31576599560907_2_alg».proof.Proof.Gen.KernelIdeal.Launch
import proofs.«136974_j31576599560907_2_alg».proof.Proof.Gen.KernelIdeal.Points
import proofs.«136974_j31576599560907_2_alg».proof.Proof.Gen.KernelIdeal.Frame
import proofs.«136974_j31576599560907_2_alg».proof.Proof.Gen.ReferenceIdeal
import proofs.«136974_j31576599560907_2_alg».proof.Proof.Gen.Pre_finite_inputs
import proofs.«136974_j31576599560907_2_alg».proof.Proof.KRun
import proofs.«136974_j31576599560907_2_alg».proof.Proof.KValue
import proofs.«136974_j31576599560907_2_alg».proof.Proof.RefRun
import proofs.«136974_j31576599560907_2_alg».proof.Proof.RefRead
import proofs.«136974_j31576599560907_2_alg».proof.Proof.RefValue
import proofs.«136974_j31576599560907_2_alg».proof.Proof.EdgeWords
import proofs.«136974_j31576599560907_2_alg».proof.Proof.Algebra
import proofs.«136974_j31576599560907_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The kernel's program runs and leaves its arguments unchanged. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both idealized programs end with the kernel's arrangement of the aggregation at every node: the kernel's program by its
    run read region by region, the reference by its run read operation by operation and the distributive law on real
    entries. -/
theorem algebraic : Cert.algebraic_KernelIdeal_ReferenceIdeal := by
  intro m ρ m' ρ' hpre hagree
  refine ⟨fun c i => Cert.GcnSpec.outK (Cert.KernelIdeal.HostValue.srcW m ρ c) (Cert.KernelIdeal.HostValue.dstW m ρ c)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (i 0), ?_, ?_⟩
  · refine (θ_run _ _ _).mono (fun r h c => ⟨(h c).1.trans ?_, (h c).2⟩) (Cert.KernelIdeal.GenP.run_result (F := Ideal) m ρ)
    funext i
    obtain ⟨n, rfl⟩ := Cert.KernelIdeal.HostValue.exists_col i
    exact Cert.KernelIdeal.HostValue.kernel_value m ρ c n
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v90_eq]
    funext i
    obtain ⟨n, rfl⟩ := Cert.KernelIdeal.HostValue.exists_col i
    rw [Cert.ReferenceIdeal.RefValue.ref_eq_outR, (hagree c).1, (hagree c).2.1, (hagree c).2.2.1, (hagree c).2.2.2.1,
      (hagree c).2.2.2.2.1, (hagree c).2.2.2.2.2, ← Cert.Proof.EdgeWords.src_eq m ρ c, ← Cert.Proof.EdgeWords.dst_eq m ρ c]
    obtain ⟨h0, h2, h3, h4, h5⟩ := Cert.Proof.Finite.allReal_of_pre _ _ _ _ _ _ (hpre c)
    exact (Cert.GcnAlgebra.outK_eq_outR _ _ _ _ _ _ _ h0 h2 h3 h4 h5 n).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
